-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 91
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x128, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S850000x1, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x128, .f32⟩
  | .hbm, ⟨80, _⟩ => ⟨S850000x1, .f32⟩
  | .hbm, ⟨81, _⟩ => ⟨S850000x128, .f32⟩
  | .hbm, ⟨82, _⟩ => ⟨S850000x128, .f32⟩
  | .hbm, ⟨83, _⟩ => ⟨S_, .f32⟩
  | .hbm, ⟨84, _⟩ => ⟨S50000x128, .f32⟩
  | .hbm, ⟨85, _⟩ => ⟨S850000x1, .i32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S1x64, .f32⟩
  | .hbm, ⟨90, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 130
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S50000x128, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .f32⟩
  | 61 => ⟨S850000x1, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S_, .f32⟩
  | 73 => ⟨S50000x128, .f32⟩
  | 74 => ⟨S50000x128, .i1⟩
  | 75 => ⟨S_, .f32⟩
  | 76 => ⟨S50000x128, .f32⟩
  | 77 => ⟨S50000x128, .f32⟩
  | 78 => ⟨S50000x128, .f32⟩
  | 79 => ⟨S50000x128, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000, .f32⟩
  | 98 => ⟨S850000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000x128, .f32⟩
  | 108 => ⟨S850000x1, .f32⟩
  | 109 => ⟨S850000x128, .f32⟩
  | 110 => ⟨S850000x128, .f32⟩
  | 111 => ⟨S_, .f32⟩
  | 112 => ⟨S50000x128, .f32⟩
  | 113 => ⟨S850000x1, .i32⟩
  | 114 => ⟨S50000x128, .f32⟩
  | 115 => ⟨S1x128, .f32⟩
  | 116 => ⟨S50000x128, .f32⟩
  | 117 => ⟨S50000x128, .f32⟩
  | 118 => ⟨S_, .f32⟩
  | 119 => ⟨S_, .f32⟩
  | 120 => ⟨S50000x128, .f32⟩
  | 121 => ⟨S50000x128, .i1⟩
  | 122 => ⟨S_, .f32⟩
  | 123 => ⟨S50000x128, .f32⟩
  | 124 => ⟨S50000x128, .f32⟩
  | 125 => ⟨S50000x128, .f32⟩
  | 126 => ⟨S50000x64, .f32⟩
  | 127 => ⟨S1x64, .f32⟩
  | _ => ⟨S50000x128, .f32⟩

abbrev hbmTy0_1 (i : Nat) : BufTy := match i % 128 with
  | 0 => ⟨S50000x64, .f32⟩
  | 1 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_call1_cst : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_v49 : Ref sig .tc := ⟨.hbm, 78, rfl⟩
abbrev main_v50 : Ref sig .tc := ⟨.hbm, 79, rfl⟩
abbrev main_c_11 : Ref sig .tc := ⟨.hbm, 80, rfl⟩
abbrev main_v51 : Ref sig .tc := ⟨.hbm, 81, rfl⟩
abbrev main_v52 : Ref sig .tc := ⟨.hbm, 82, rfl⟩
abbrev main_c_12 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_13 : Ref sig .tc := ⟨.hbm, 89, rfl⟩
abbrev main_v58 : Ref sig .tc := ⟨.hbm, 90, rfl⟩
abbrev main_v59 : Ref sig .tc := ⟨.hbm, 91, rfl⟩
abbrev main_c_14 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_15 : Ref sig .tc := ⟨.hbm, 99, rfl⟩
abbrev main_v66 : Ref sig .tc := ⟨.hbm, 100, rfl⟩
abbrev main_v67 : Ref sig .tc := ⟨.hbm, 101, rfl⟩
abbrev main_c_16 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_17 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_18 : Ref sig .tc := ⟨.hbm, 118, rfl⟩
abbrev main_call2_cst : Ref sig .tc := ⟨.hbm, 119, rfl⟩
abbrev main_call2_v0 : Ref sig .tc := ⟨.hbm, 120, rfl⟩
abbrev main_call2_v1 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  dot_S50000x128_S128x128_S50000x128_1_0_0_1_n_n_wf : DotDims.WF S50000x128 S128x128 S50000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel program's run, with its result named.

  The program is five tiled regions threaded through stretches of host operations. Its run is a chain of segments:
  each host stretch maps the buffer contents at one boundary to those at the next, and each region replaces the
  arrays of its windows by what its write-backs leave and keeps every other buffer. The contents at the last
  boundary are therefore one fold from the launch memory. Every weakly fair execution terminates in a state whose
  unscoped buffers hold exactly that fold; in particular the result array holds the fold's value at the result
  buffer, and each argument array holds what it was launched with.
-/
import proofs.«120929_j3917010174092_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result array is the last region's output window: at the last boundary it holds what that region's
    write-backs leave. -/
theorem last_result (c : Dev nD) :
    W11 m ρ c (Proc.devRef .tc main_v65) = (dat4 (V10 m ρ) c).arrAt 3 cfg4.N :=
  W11_arr m ρ c 3

set_option backward.isDefEq.respectTransparency.types false in
/-- Every weakly fair execution terminates, nothing faulting; the result array ends at the last boundary's
    contents of the result buffer, and each argument array ends as launched. -/
theorem run_result : θ_run defs (onTc (τ := τ) (main (F := F))) ⟨m, fun _ => 0, ρ⟩ (fun r => ∀ c : Dev nD,
      r.2.mem ((c.tc : Thread nD τ).loc main_v65) = W11 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v65 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.Run

end
-- ==== Proof.LibMatmulRowsByCols.lean ====
/-
  A matrix product that contracts the LAST axis of the left operand with the FIRST axis of the right one
  ("nk,km→nm": rows against columns), over the extended reals, for any extents.

  For A of shape [N, K] and B of shape [K, M] and the dimension numbers contracting [1] × [0], free axes [0] and [1],
  no batch axis, the product's entry (n, c) is  Σₖ A(n, k) · B(k, c).  This holds of a kernel's matrix product into
  the zero accumulator and of the host's general dot product alike, whatever the precision attribute: over the
  extended reals both are the plain contraction. The lemmas ask only that the dimension-number record HAS these six
  lists (`Is d`: six equations, each `rfl` for a printed record), not that it is spelt in any particular way.

  The contraction is indexed by the one-axis contraction shape, and each operand's index at (output entry,
  contraction index) is computed from the lists by position; here the positions are read once, symbolically in
  N, K, M, and the sum is re-indexed by the shared coordinate k : Fin K.
-/
import Idealize.ShloMosaic.PureOps.Ideal
import Idealize.ShloMosaic.PureOps.Ideal.Laws
import Idealize.ShloMosaic.Lib.ValueIdx

noncomputable section

namespace Cert.RowsByCols

open Idealize.ShloMosaic Idealize.ShloMosaic.ValueIdx

variable {N K M : Nat}

/-- The dimension numbers of "nk,km→nm": the left operand contracted on axis 1 and free on axis 0, the right one
    contracted on axis 0 and free on axis 1, no batch axis. -/
structure Is (d : DotDims ⟨2, ![N, K]⟩ ⟨2, ![K, M]⟩ ⟨2, ![N, M]⟩) : Prop where
  lc : d.lhsContracting = [1]
  rc : d.rhsContracting = [0]
  ln : d.lhsNonContracting = [0]
  rn : d.rhsNonContracting = [1]
  lb : d.lhsBatch = []
  rb : d.rhsBatch = []

/-- The side condition a record with these lists carries. -/
abbrev WFt (N K M : Nat) : Prop := DotDims.WF (⟨2, ![N, K]⟩ : Shape) ⟨2, ![K, M]⟩ ⟨2, ![N, M]⟩ [1] [0] [0] [1] [] []

/-- The record with these lists, over a given proof of its side condition. -/
abbrev dims (wf : WFt N K M) : DotDims ⟨2, ![N, K]⟩ ⟨2, ![K, M]⟩ ⟨2, ![N, M]⟩ := ⟨[1], [0], [0], [1], [], [], wf⟩

/-- The left operand's row at output entry i is i's row. -/
theorem lhs_row (wf : WFt N K M) (i : (⟨2, ![N, M]⟩ : Shape).Idx) (k : (dims wf).contr.Idx) :
    ((dims wf).lhsIdx i k 0).val = (i 0).val := by
  unfold DotDims.lhsIdx
  rw [dif_neg (show ¬(0 : Fin (⟨2, ![N, K]⟩ : Shape).rank) ∈ (dims wf).lhsBatch from List.not_mem_nil),
    dif_pos (show (0 : Fin (⟨2, ![N, K]⟩ : Shape).rank) ∈ (dims wf).lhsNonContracting from List.mem_singleton.2 rfl)]
  rfl

/-- The left operand's column is the contraction index. -/
theorem lhs_col (wf : WFt N K M) (i : (⟨2, ![N, M]⟩ : Shape).Idx) (k : (dims wf).contr.Idx) :
    ((dims wf).lhsIdx i k 1).val = (k ⟨0, Nat.one_pos⟩).val :=
  (dims wf).lhsIdx_val_of_single rfl i k

/-- The right operand's row is the contraction index. -/
theorem rhs_row (wf : WFt N K M) (i : (⟨2, ![N, M]⟩ : Shape).Idx) (k : (dims wf).contr.Idx) :
    ((dims wf).rhsIdx i k 0).val = (k ⟨0, Nat.one_pos⟩).val :=
  (dims wf).rhsIdx_val_of_single rfl i k

/-- The right operand's column at output entry i is i's column. -/
theorem rhs_col (wf : WFt N K M) (i : (⟨2, ![N, M]⟩ : Shape).Idx) (k : (dims wf).contr.Idx) :
    ((dims wf).rhsIdx i k 1).val = (i 1).val := by
  unfold DotDims.rhsIdx
  rw [dif_neg (show ¬(1 : Fin (⟨2, ![K, M]⟩ : Shape).rank) ∈ (dims wf).rhsBatch from List.not_mem_nil),
    dif_pos (show (1 : Fin (⟨2, ![K, M]⟩ : Shape).rank) ∈ (dims wf).rhsNonContracting from List.mem_singleton.2 rfl)]
  rfl

/-- The contraction at entry (n, c), re-indexed by the shared coordinate, for the record spelt with the lists. -/
theorem sum_dims (wf : WFt N K M) {φ₁ φ₂ : FTy}
    (A : FVec Ideal ⟨2, ![N, K]⟩ φ₁) (B : FVec Ideal ⟨2, ![K, M]⟩ φ₂) (n : Fin N) (c : Fin M) :
    ∑ k : (dims wf).contr.Idx, A ((dims wf).lhsIdx (ix2 n c) k) * B ((dims wf).rhsIdx (ix2 n c) k)
      = ∑ k : Fin K, A (ix2 n k) * B (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 n c) ((contrEquiv1 (dims wf) K rfl rfl).symm k) = ix2 n k :=
    funext fun a => Fin.ext (by
      match a with
      | ⟨0, _⟩ => exact lhs_row wf _ _
      | ⟨1, _⟩ => exact (lhs_col wf _ _).trans hk)
  have er : (dims wf).rhsIdx (ix2 n c) ((contrEquiv1 (dims wf) K rfl rfl).symm k) = ix2 k c :=
    funext fun a => Fin.ext (by
      match a with
      | ⟨0, _⟩ => exact (rhs_row wf _ _).trans hk
      | ⟨1, _⟩ => exact rhs_col wf _ _)
  rw [el, er]

/-- The same for ANY record that has the lists: it is the record spelt with them. -/
theorem sum_apply (d : DotDims ⟨2, ![N, K]⟩ ⟨2, ![K, M]⟩ ⟨2, ![N, M]⟩) (h : Is d) {φ₁ φ₂ : FTy}
    (A : FVec Ideal ⟨2, ![N, K]⟩ φ₁) (B : FVec Ideal ⟨2, ![K, M]⟩ φ₂) (n : Fin N) (c : Fin M) :
    ∑ k : d.contr.Idx, A (d.lhsIdx (ix2 n c) k) * B (d.rhsIdx (ix2 n c) k) = ∑ k : Fin K, A (ix2 n k) * B (ix2 k c) := by
  obtain ⟨lc, rc, ln, rn, lb, rb, wf⟩ := d
  obtain ⟨h1, h2, h3, h4, h5, h6⟩ := h
  dsimp only at h1 h2 h3 h4 h5 h6
  subst h1 h2 h3 h4 h5 h6
  exact sum_dims wf A B n c

/-- A KERNEL's matrix product into the zero accumulator, at entry (n, c): Σₖ A(n, k) · B(k, c). -/
theorem matmul_zero_apply (d : DotDims ⟨2, ![N, K]⟩ ⟨2, ![K, M]⟩ ⟨2, ![N, M]⟩) (h : Is d) (prec : Option ContractPrecision)
    {φ₁ φ₂ : FTy} (A : FVec Ideal ⟨2, ![N, K]⟩ φ₁) (B : FVec Ideal ⟨2, ![K, M]⟩ φ₂) (n : Fin N) (c : Fin M) :
    matmul d prec A B (constant (F := Ideal) ⟨2, ![N, M]⟩ .f32 0x00000000#32) (ix2 n c)
      = ∑ k : Fin K, A (ix2 n k) * B (ix2 k c) := by
  simp only [matmul]
  rw [Ideal.matmul_constant_zero_apply]
  exact sum_apply d h A B n c

/-- The HOST's general dot product, at entry (n, c): the same sum. -/
theorem dotGeneral_apply (d : DotDims ⟨2, ![N, K]⟩ ⟨2, ![K, M]⟩ ⟨2, ![N, M]⟩) (h : Is d) (prec : Option ContractPrecision)
    {φ₁ φ₂ : FTy} (A : FVec Ideal ⟨2, ![N, K]⟩ φ₁) (B : FVec Ideal ⟨2, ![K, M]⟩ φ₂) (n : Fin N) (c : Fin M) :
    Host.dotGeneral d prec A B (ix2 n c) = ∑ k : Fin K, A (ix2 n k) * B (ix2 k c) := by
  simp only [Host.dotGeneral]
  rw [Ideal.dotGeneral_apply]
  exact sum_apply d h A B n c

end Cert.RowsByCols

end
-- ==== Proof.Spec.lean ====
/-
  The arithmetic of a two-layer graph convolution, as whole-array functions over the extended reals.

  A node table has N rows and C feature columns. Three functions are used:
  * the product of a table A [N, K] with a weight matrix B [K, M]: entry (n, c) is  Σₖ A(n, k) · B(k, c);
  * a bias row added to every row of a table, followed by the leaky slope: with v = A(n, c) + b(c), the entry is
    v where 0 < v and s · v elsewhere;
  * a bias row added to every row of a table.

  The leaky slope has two spellings, "v where 0 < v" and "v where 0 ≤ v". They differ only at v = 0, where the
  first gives s · 0 and the second gives 0; on the extended reals s · 0 = 0 for every s, so the two are one function.
  No finiteness is needed: at ⊤ both give ⊤, at ⊥ both give s · ⊥.
-/
import Idealize.ShloMosaic.PureOps.Ideal
import Idealize.ShloMosaic.PureOps.Ideal.Laws
import Idealize.ShloMosaic.Lib.ValueIdx
import proofs.«120929_j3917010174092_1_alg».proof.Proof.LibMatmulRowsByCols

noncomputable section

namespace Cert.Gcn

open Idealize.ShloMosaic Idealize.ShloMosaic.ValueIdx

/-- Entry (n, c) of the product of A [N, K] and B [K, M]: the row n of A against the column c of B. -/
def rowsByCols {N K M : Nat} (A : FVec Ideal ⟨2, ![N, K]⟩ .f32) (B : FVec Ideal ⟨2, ![K, M]⟩ .f32) :
    FVec Ideal ⟨2, ![N, M]⟩ .f32 :=
  fun i => ∑ k : Fin K, A (ix2 (i 0) k) * B (ix2 k (i 1))

theorem rowsByCols_apply {N K M : Nat} (A : FVec Ideal ⟨2, ![N, K]⟩ .f32) (B : FVec Ideal ⟨2, ![K, M]⟩ .f32)
    (n : Fin N) (c : Fin M) : rowsByCols A B (ix2 n c) = ∑ k : Fin K, A (ix2 n k) * B (ix2 k c) := rfl

/-- The leaky slope with the strict test: v where 0 < v, s · v elsewhere. -/
def leakyGt (s v : EReal) : EReal := if 0 < v then v else s * v

/-- The leaky slope with the weak test: v where 0 ≤ v, s · v elsewhere. -/
def leakyGe (s v : EReal) : EReal := if 0 ≤ v then v else s * v

/-- The two tests give one function: they part only at v = 0, where s · 0 = 0. -/
theorem leakyGt_eq_leakyGe (s v : EReal) : leakyGt s v = leakyGe s v := by
  unfold leakyGt leakyGe
  by_cases h : 0 < v
  · rw [if_pos h, if_pos h.le]
  · rw [if_neg h]
    by_cases h0 : 0 ≤ v
    · have hv : v = 0 := le_antisymm (not_lt.mp h) h0
      rw [if_pos h0, hv, mul_zero]
    · rw [if_neg h0]

/-- A bias row added to every row of a table, then the leaky slope with the strict test. -/
def biasLeaky {N C : Nat} (s : EReal) (A : FVec Ideal ⟨2, ![N, C]⟩ .f32) (b : FVec Ideal ⟨2, ![1, C]⟩ .f32) :
    FVec Ideal ⟨2, ![N, C]⟩ .f32 :=
  fun i => leakyGt s (A i + b (ix2 (0 : Fin 1) (i 1)))

theorem biasLeaky_apply {N C : Nat} (s : EReal) (A : FVec Ideal ⟨2, ![N, C]⟩ .f32) (b : FVec Ideal ⟨2, ![1, C]⟩ .f32)
    (n : Fin N) (c : Fin C) : biasLeaky s A b (ix2 n c) = leakyGt s (A (ix2 n c) + b (ix2 (0 : Fin 1) c)) := rfl

/-- A bias row added to every row of a table. -/
def biasRow {N C : Nat} (A : FVec Ideal ⟨2, ![N, C]⟩ .f32) (b : FVec Ideal ⟨2, ![1, C]⟩ .f32) :
    FVec Ideal ⟨2, ![N, C]⟩ .f32 :=
  fun i => A i + b (ix2 (0 : Fin 1) (i 1))

theorem biasRow_apply {N C : Nat} (A : FVec Ideal ⟨2, ![N, C]⟩ .f32) (b : FVec Ideal ⟨2, ![1, C]⟩ .f32)
    (n : Fin N) (c : Fin C) : biasRow A b (ix2 n c) = A (ix2 n c) + b (ix2 (0 : Fin 1) c) := rfl

/-- A selection on a strict comparison of extended reals is the conditional on the strict order. -/
theorem select_ogt (v z a b : EReal) : Scalar.select (Ideal.cmp .ogt v z) a b = if z < v then a else b := by
  unfold Scalar.select Ideal.cmp
  by_cases h : z < v <;> simp [h]

/-- A selection on a weak comparison of extended reals is the conditional on the weak order. -/
theorem select_oge (v z a b : EReal) : Scalar.select (Ideal.cmp .oge v z) a b = if z ≤ v then a else b := by
  unfold Scalar.select Ideal.cmp
  by_cases h : z ≤ v <;> simp [h]

end Cert.Gcn

end
-- ==== Proof.Region0.lean ====
/-
  The first product region: the node table x [50000, 128] against the weight matrix W [128, 128].

  The region visits ten points. Point t stages rows 5000·t … 5000·t + 4999 of the table and the whole weight
  matrix, multiplies them into a zero accumulator, and writes the 5000 × 128 result back to the same rows of the
  output. The roundings to the short float format on the way into the product are the identity on the extended
  reals. So what point t writes back is rows 5000·t … of the whole product, entry (n, c) being Σₖ x(n, k) · W(k, c):
  a row of the product depends on that row of the table only. The ten row blocks tile the output, hence after the
  region the output array IS the whole product of the two arrays as the region found them.
-/
import proofs.«120929_j3917010174092_1_alg».proof.Proof.Gen.KernelIdeal.Frame
import proofs.«120929_j3917010174092_1_alg».proof.Proof.Spec
import Idealize.ShloMosaic.Lib.Pipeline.Value
import Idealize.ShloMosaic.Lib.ValueIdx

set_option maxRecDepth 16384

noncomputable section

namespace Cert.KernelIdeal.Region0

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's product at entry (p, q) of a block: the block's row p against the matrix's column q. -/
theorem product_apply (x0 : FVec Ideal S5000x128 .f32) (x1 : FVec Ideal S128x128 .f32) (p : Fin 5000) (q : Fin 128) :
    k0_pay1 x0 x1 (ix2 p q) = ∑ k : Fin 128, x0 (ix2 p k) * x1 (ix2 k q) := by
  unfold k0_pay1
  exact Cert.RowsByCols.matmul_zero_apply dot_S5000x128_S128x128_S5000x128_1_0_0_1_n_n ⟨rfl, rfl, rfl, rfl, rfl, rfl⟩ none
    (truncf .bf16 x0 bitsLt_bf16_f32) (truncf .bf16 x1 bitsLt_bf16_f32) p q

/-- The index maps over the grid: the table's and the output's blocks move together along the rows, the weight
    matrix stays whole, and there are ten row blocks. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block is some point's. -/
theorem index_onto : ∀ q0 : Fin 10, ∃ t : Fin cfg0.N, win0_2.index t = ![q0.val, 0] :=
  (by decide +kernel : ∀ q0 : Fin 10, ∃ t : Fin grid0.N, win0_2.index t = ![q0.val, 0])

/-- What point t writes back is rows 5000·t … of the whole product. -/
theorem written_eq (c : Dev nD) (t : Fin cfg0.N) :
    (dat0 V c).flushed 2 t = ((cfg0.win 2).blk t).view.read (Elt Ideal)
      (rowsByCols (N := 50000) (K := 128) (M := 128) (V c main_arg0) (V c main_arg2)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  obtain ⟨e0, e1, e2, e3, e4, e5⟩ := index_facts t
  refine funext fun (j : S5000x128.Idx) => ?_
  obtain ⟨p, q, rfl⟩ : ∃ (p : Fin 5000) (q : Fin 128), j = ix2 p q := ⟨j 0, j 1, eq_ix2 j⟩
  show k0_pay1 (iblk0 V c 0 t) (iblk0 V c 1 t) (ix2 p q) = _
  refine (product_apply _ _ p q).trans ?_
  show ∑ k : Fin 128, (show FVec Ideal S50000x128 .f32 from V c main_arg0) (((cfg0.win 0).blk t).view.emb (ix2 p k)) * (show FVec Ideal S128x128 .f32 from V c main_arg2) (((cfg0.win 1).blk t).view.emb (ix2 k q))
      = ∑ k : Fin 128, (show FVec Ideal S50000x128 .f32 from V c main_arg0) (ix2 ((((cfg0.win 2).blk t).view.emb (ix2 p q)) 0) k) * (show FVec Ideal S128x128 .f32 from V c main_arg2) (ix2 k ((((cfg0.win 2).blk t).view.emb (ix2 p q)) 1))
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [h0, h1]
  rfl

/-- An index of the output is in point t's block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- The row blocks tile the output: row r lies in block r / 5000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region its output array is the whole product of the table and the weight matrix as entered. -/
theorem result (c : Dev nD) :
    (dat0 V c).arrAt 2 cfg0.N = rowsByCols (N := 50000) (K := 128) (M := 128) (V c main_arg0) (V c main_arg2) :=
  (dat0 V c).arrAt_eq_of_cover 2 _ (fun t _ => written_eq V c t) covered

end Cert.KernelIdeal.Region0

end
-- ==== Proof.Region1.lean ====
/-
  The first bias region: the aggregated table a [50000, 128], a bias row b [1, 128], and the leaky slope.

  The region visits ten points. Point t stages rows 5000·t … 5000·t + 4999 of the table and the whole bias row,
  adds the row to every staged row, and keeps each sum v where 0 < v and replaces it by s · v elsewhere, s the
  slope constant. Every step acts entry by entry except the row's repetition down the block, so entry (p, q) of
  what point t writes back depends on the table's entry (5000·t + p, q) and the bias entry q alone. The ten row
  blocks tile the output, hence after the region the output array is that function of the two arrays as entered.
-/
import proofs.«120929_j3917010174092_1_alg».proof.Proof.Gen.KernelIdeal.Frame
import proofs.«120929_j3917010174092_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The slope constant, as its binary value. -/
abbrev slope : EReal := Ideal.ofBits .f32 0x3C23D70A#32

/-- The body's result at entry (p, q) of a block: the leaky slope of the block's entry plus the bias entry q. -/
theorem slope_apply (x0 : FVec Ideal S5000x128 .f32) (x1 : FVec Ideal S1x128 .f32) (p : Fin 5000) (q : Fin 128) :
    k1_pay1 (F := Ideal) x0 x1 (ix2 p q) = leakyGt slope (x0 (ix2 p q) + x1 (ix2 (0 : Fin 1) q)) := by
  have ha : shapeCast S5000x128 x0 shapeCasts_S5000x128_S5000x128 (ix2 p q) = x0 (ix2 p q) := congrFun (shapeCast_self x0 _) _
  have hb : broadcastTo S5000x128 (shapeCast S1x128 x1 shapeCasts_S1x128_S1x128) broadcasts_S1x128_S5000x128 (ix2 p q) = x1 (ix2 (0 : Fin 1) q) := by
    rw [shapeCast_self]; exact broadcastTo_1b_ab_apply x1 _ p q
  show Scalar.select (Ideal.cmp .ogt (shapeCast S5000x128 x0 shapeCasts_S5000x128_S5000x128 (ix2 p q) + broadcastTo S5000x128 (shapeCast S1x128 x1 shapeCasts_S1x128_S1x128) broadcasts_S1x128_S5000x128 (ix2 p q)) (Ideal.ofBits .f32 0x00000000#32))
      (shapeCast S5000x128 x0 shapeCasts_S5000x128_S5000x128 (ix2 p q) + broadcastTo S5000x128 (shapeCast S1x128 x1 shapeCasts_S1x128_S1x128) broadcasts_S1x128_S5000x128 (ix2 p q))
      (Ideal.ofBits .f32 0x3C23D70A#32 * (shapeCast S5000x128 x0 shapeCasts_S5000x128_S5000x128 (ix2 p q) + broadcastTo S5000x128 (shapeCast S1x128 x1 shapeCasts_S1x128_S1x128) broadcasts_S1x128_S5000x128 (ix2 p q))) = _
  rw [ha, hb, Ideal.ofBits_zero_f32, select_ogt]
  rfl

/-- The index maps over the grid: the table's and the output's blocks move together along the rows, the bias row
    stays whole, and there are ten row blocks. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every row block is some point's. -/
theorem index_onto : ∀ q0 : Fin 10, ∃ t : Fin cfg1.N, win1_2.index t = ![q0.val, 0] :=
  (by decide +kernel : ∀ q0 : Fin 10, ∃ t : Fin grid1.N, win1_2.index t = ![q0.val, 0])

/-- What point t writes back is rows 5000·t … of the whole-array function. -/
theorem written_eq (c : Dev nD) (t : Fin cfg1.N) :
    (dat1 V c).flushed 2 t = ((cfg1.win 2).blk t).view.read (Elt Ideal)
      (biasLeaky (N := 50000) (C := 128) slope (V c main_v45) (V c main_v46)) := by
  show (cfg1.win 2).cut (grid1.coords t) ((dat1 V c).after 2 t) = _
  rw [after1_2]
  unfold out1_2
  rw [View.canon_unit_zero origin]
  simp only [View.ld_unit_zero (S := S5000x128) origin, View.ld_unit_zero (S := S1x128) origin]
  obtain ⟨e0, e1, e2, e3, e4, e5⟩ := index_facts t
  refine funext fun (j : S5000x128.Idx) => ?_
  obtain ⟨p, q, rfl⟩ : ∃ (p : Fin 5000) (q : Fin 128), j = ix2 p q := ⟨j 0, j 1, eq_ix2 j⟩
  show k1_pay1 (iblk1 V c 0 t) (iblk1 V c 1 t) (ix2 p q) = _
  refine (slope_apply _ _ p q).trans ?_
  show leakyGt slope ((show FVec Ideal S50000x128 .f32 from V c main_v45) (((cfg1.win 0).blk t).view.emb (ix2 p q))
        + (show FVec Ideal S1x128 .f32 from V c main_v46) (((cfg1.win 1).blk t).view.emb (ix2 (0 : Fin 1) q)))
      = leakyGt slope ((show FVec Ideal S50000x128 .f32 from V c main_v45) (((cfg1.win 2).blk t).view.emb (ix2 p q))
        + (show FVec Ideal S1x128 .f32 from V c main_v46) (ix2 (0 : Fin 1) ((((cfg1.win 2).blk t).view.emb (ix2 p q)) 1)))
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q) = ix2 (0 : Fin 1) ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [h0, h1]
  rfl

/-- An index of the output is in point t's block iff each coordinate is in the block's range on its axis. -/
theorem mem_block (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- The row blocks tile the output: row r lies in block r / 5000. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region its output array is the bias row added to the table as entered, then the leaky slope. -/
theorem result (c : Dev nD) :
    (dat1 V c).arrAt 2 cfg1.N = biasLeaky (N := 50000) (C := 128) slope (V c main_v45) (V c main_v46) :=
  (dat1 V c).arrAt_eq_of_cover 2 _ (fun t _ => written_eq V c t) covered

end Cert.KernelIdeal.Region1

end
-- ==== Proof.Region2.lean ====
/-
  The second product region: the first layer's activations h [50000, 128] against the weight matrix W [128, 128].

  As in the first product region, point t stages rows 5000·t … 5000·t + 4999 of the table and the whole weight
  matrix, multiplies them into a zero accumulator, and writes the result back to the same rows of the output; the
  roundings on the way into the product are the identity on the extended reals, and so is the cast of a block to
  its own shape. What point t writes back is rows 5000·t … of the whole product, and the ten row blocks tile the
  output, so after the region the output array is the whole product of the two arrays as the region found them.
-/
import proofs.«120929_j3917010174092_1_alg».proof.Proof.Gen.KernelIdeal.Frame
import proofs.«120929_j3917010174092_1_alg».proof.Proof.Spec
import Idealize.ShloMosaic.Lib.Pipeline.Value
import Idealize.ShloMosaic.Lib.ValueIdx

set_option maxRecDepth 16384

noncomputable section

namespace Cert.KernelIdeal.Region2

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's product at entry (p, q) of a block: the block's row p against the matrix's column q. -/
theorem product_apply (x0 : FVec Ideal S5000x128 .f32) (x1 : FVec Ideal S128x128 .f32) (p : Fin 5000) (q : Fin 128) :
    k2_pay1 x0 x1 (ix2 p q) = ∑ k : Fin 128, x0 (ix2 p k) * x1 (ix2 k q) := by
  have e0 : shapeCast S5000x128 x0 = x0 := shapeCast_self x0 _
  show matmul dot_S5000x128_S128x128_S5000x128_1_0_0_1_n_n none (truncf .bf16 (shapeCast S5000x128 x0) bitsLt_bf16_f32)
      (truncf .bf16 x1 bitsLt_bf16_f32) (constant S5000x128 .f32 0x00000000#32) (ix2 p q) = _
  rw [e0]
  exact Cert.RowsByCols.matmul_zero_apply dot_S5000x128_S128x128_S5000x128_1_0_0_1_n_n ⟨rfl, rfl, rfl, rfl, rfl, rfl⟩ none
    (truncf .bf16 x0 bitsLt_bf16_f32) (truncf .bf16 x1 bitsLt_bf16_f32) p q

/-- The index maps over the grid: the table's and the output's blocks move together along the rows, the weight
    matrix stays whole, and there are ten row blocks. -/
theorem index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every row block is some point's. -/
theorem index_onto : ∀ q0 : Fin 10, ∃ t : Fin cfg2.N, win2_2.index t = ![q0.val, 0] :=
  (by decide +kernel : ∀ q0 : Fin 10, ∃ t : Fin grid2.N, win2_2.index t = ![q0.val, 0])

/-- What point t writes back is rows 5000·t … of the whole product. -/
theorem written_eq (c : Dev nD) (t : Fin cfg2.N) :
    (dat2 V c).flushed 2 t = ((cfg2.win 2).blk t).view.read (Elt Ideal)
      (rowsByCols (N := 50000) (K := 128) (M := 128) (V c main_v47) (V c main_arg4)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x128) origin]
  obtain ⟨e0, e1, e2, e3, e4, e5⟩ := index_facts t
  refine funext fun (j : S5000x128.Idx) => ?_
  obtain ⟨p, q, rfl⟩ : ∃ (p : Fin 5000) (q : Fin 128), j = ix2 p q := ⟨j 0, j 1, eq_ix2 j⟩
  show k2_pay1 (iblk2 V c 0 t) (iblk2 V c 1 t) (ix2 p q) = _
  refine (product_apply _ _ p q).trans ?_
  show ∑ k : Fin 128, (show FVec Ideal S50000x128 .f32 from V c main_v47) (((cfg2.win 0).blk t).view.emb (ix2 p k)) * (show FVec Ideal S128x128 .f32 from V c main_arg4) (((cfg2.win 1).blk t).view.emb (ix2 k q))
      = ∑ k : Fin 128, (show FVec Ideal S50000x128 .f32 from V c main_v47) (ix2 ((((cfg2.win 2).blk t).view.emb (ix2 p q)) 0) k) * (show FVec Ideal S128x128 .f32 from V c main_arg4) (ix2 k ((((cfg2.win 2).blk t).view.emb (ix2 p q)) 1))
  refine Finset.sum_congr rfl fun k _ => ?_
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  rw [h0, h1]
  rfl

/-- An index of the output is in point t's block iff each coordinate is in the block's range on its axis. -/
theorem mem_block (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v48).slice (win2_2.rect t)).set ↔ _
  rw [View.set_slice_whole, Rect.mem_set_unit]
  exact Iff.rfl

/-- The row blocks tile the output: row r lies in block r / 5000. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := index_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the region its output array is the whole product of the table and the weight matrix as entered. -/
theorem result (c : Dev nD) :
    (dat2 V c).arrAt 2 cfg2.N = rowsByCols (N := 50000) (K := 128) (M := 128) (V c main_v47) (V c main_arg4) :=
  (dat2 V c).arrAt_eq_of_cover 2 _ (fun t _ => written_eq V c t) covered

end Cert.KernelIdeal.Region2

end
-- ==== Proof.Region3.lean ====
/-
  The second bias region: the second layer's aggregated table a [50000, 128], a bias row b [1, 128], and the leaky slope.

  The region visits ten points. Point t stages rows 5000·t … 5000·t + 4999 of the table and the whole bias row,
  adds the row to every staged row, and keeps each sum v where 0 < v and replaces it by s · v elsewhere, s the
  slope constant. Every step acts entry by entry except the row's repetition down the block, so entry (p, q) of
  what point t writes back depends on the table's entry (5000·t + p, q) and the bias entry q alone. The ten row
  blocks tile the output, hence after the region the output array is that function of the two arrays as entered.
-/
import proofs.«120929_j3917010174092_1_alg».proof.Proof.Gen.KernelIdeal.Frame
import proofs.«120929_j3917010174092_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Region3

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The slope constant, as its binary value. -/
abbrev slope : EReal := Ideal.ofBits .f32 0x3C23D70A#32

/-- The body's result at entry (p, q) of a block: the leaky slope of the block's entry plus the bias entry q. -/
theorem slope_apply (x0 : FVec Ideal S5000x128 .f32) (x1 : FVec Ideal S1x128 .f32) (p : Fin 5000) (q : Fin 128) :
    k3_pay1 (F := Ideal) x0 x1 (ix2 p q) = leakyGt slope (x0 (ix2 p q) + x1 (ix2 (0 : Fin 1) q)) := by
  have ha : shapeCast S5000x128 x0 shapeCasts_S5000x128_S5000x128 (ix2 p q) = x0 (ix2 p q) := congrFun (shapeCast_self x0 _) _
  have hb : broadcastTo S5000x128 (shapeCast S1x128 x1 shapeCasts_S1x128_S1x128) broadcasts_S1x128_S5000x128 (ix2 p q) = x1 (ix2 (0 : Fin 1) q) := by
    rw [shapeCast_self]; exact broadcastTo_1b_ab_apply x1 _ p q
  show Scalar.select (Ideal.cmp .ogt (shapeCast S5000x128 x0 shapeCasts_S5000x128_S5000x128 (ix2 p q) + broadcastTo S5000x128 (shapeCast S1x128 x1 shapeCasts_S1x128_S1x128) broadcasts_S1x128_S5000x128 (ix2 p q)) (Ideal.ofBits .f32 0x00000000#32))
      (shapeCast S5000x128 x0 shapeCasts_S5000x128_S5000x128 (ix2 p q) + broadcastTo S5000x128 (shapeCast S1x128 x1 shapeCasts_S1x128_S1x128) broadcasts_S1x128_S5000x128 (ix2 p q))
      (Ideal.ofBits .f32 0x3C23D70A#32 * (shapeCast S5000x128 x0 shapeCasts_S5000x128_S5000x128 (ix2 p q) + broadcastTo S5000x128 (shapeCast S1x128 x1 shapeCasts_S1x128_S1x128) broadcasts_S1x128_S5000x128 (ix2 p q))) = _
  rw [ha, hb, Ideal.ofBits_zero_f32, select_ogt]
  rfl

/-- The index maps over the grid: the table's and the output's blocks move together along the rows, the bias row
    stays whole, and there are ten row blocks. -/
theorem index_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 9 :=
  (by decide +kernel : ∀ t : Fin grid3.N, _)

/-- Every row block is some point's. -/
theorem index_onto : ∀ q0 : Fin 10, ∃ t : Fin cfg3.N, win3_2.index t = ![q0.val, 0] :=
  (by decide +kernel : ∀ q0 : Fin 10, ∃ t : Fin grid3.N, win3_2.index t = ![q0.val, 0])

/-- What point t writes back is rows 5000·t … of the whole-array function. -/
theorem written_eq (c : Dev nD) (t : Fin cfg3.N) :
    (dat3 V c).flushed 2 t = ((cfg3.win 2).blk t).view.read (Elt Ideal)
      (biasLeaky (N := 50000) (C := 128) slope (V c main_v61) (V c main_v62)) := by
  show (cfg3.win 2).cut (grid3.coords t) ((dat3 V c).after 2 t) = _
  rw [after3_2]
  unfold out3_2
  rw [View.canon_unit_zero origin]
  simp only [View.ld_unit_zero (S := S5000x128) origin, View.ld_unit_zero (S := S1x128) origin]
  obtain ⟨e0, e1, e2, e3, e4, e5⟩ := index_facts t
  refine funext fun (j : S5000x128.Idx) => ?_
  obtain ⟨p, q, rfl⟩ : ∃ (p : Fin 5000) (q : Fin 128), j = ix2 p q := ⟨j 0, j 1, eq_ix2 j⟩
  show k3_pay1 (iblk3 V c 0 t) (iblk3 V c 1 t) (ix2 p q) = _
  refine (slope_apply _ _ p q).trans ?_
  show leakyGt slope ((show FVec Ideal S50000x128 .f32 from V c main_v61) (((cfg3.win 0).blk t).view.emb (ix2 p q))
        + (show FVec Ideal S1x128 .f32 from V c main_v62) (((cfg3.win 1).blk t).view.emb (ix2 (0 : Fin 1) q)))
      = leakyGt slope ((show FVec Ideal S50000x128 .f32 from V c main_v61) (((cfg3.win 2).blk t).view.emb (ix2 p q))
        + (show FVec Ideal S1x128 .f32 from V c main_v62) (ix2 (0 : Fin 1) ((((cfg3.win 2).blk t).view.emb (ix2 p q)) 1)))
  have h0 : ((cfg3.win 0).blk t).view.emb (ix2 p q) = ((cfg3.win 2).blk t).view.emb (ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * q.val = win3_2.index t (1 : Fin 2) * 128 + 1 * q.val; omega
  have h1 : ((cfg3.win 1).blk t).view.emb (ix2 (0 : Fin 1) q) = ix2 (0 : Fin 1) ((((cfg3.win 2).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  rw [h0, h1]
  rfl

/-- An index of the output is in point t's block iff each coordinate is in the block's range on its axis. -/
theorem mem_block (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v63).slice (win3_2.rect t)).set ↔ _
  rw [View.set_slice_whole, Rect.mem_set_unit]
  exact Iff.rfl

/-- The row blocks tile the output: row r lies in block r / 5000. -/
theorem covered (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := index_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After the region its output array is the bias row added to the table as entered, then the leaky slope. -/
theorem result (c : Dev nD) :
    (dat3 V c).arrAt 2 cfg3.N = biasLeaky (N := 50000) (C := 128) slope (V c main_v61) (V c main_v62) :=
  (dat3 V c).arrAt_eq_of_cover 2 _ (fun t _ => written_eq V c t) covered

end Cert.KernelIdeal.Region3

end
-- ==== Proof.Region4.lean ====
/-
  The final linear region: the second layer's activations h [50000, 128], the weight matrix W [128, 64] and a bias
  row b [1, 64].

  The region visits ten points. Point t stages rows 5000·t … 5000·t + 4999 of the table, the whole weight matrix
  and the whole bias row, multiplies the staged rows by the matrix into a zero accumulator, adds the bias row to
  every row of the product, and writes the 5000 × 64 result back to the same rows of the output. The roundings on
  the way into the product are the identity on the extended reals. Entry (p, q) of what point t writes back is
  Σₖ h(5000·t + p, k) · W(k, q) + b(q). The ten row blocks tile the output, hence after the region the output
  array is the whole product of the two arrays as entered with the bias row added to every row.
-/
import proofs.«120929_j3917010174092_1_alg».proof.Proof.Gen.KernelIdeal.Frame
import proofs.«120929_j3917010174092_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Region4

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's result at entry (p, q) of a block: the block's row p against the matrix's column q, plus the bias
    entry q. -/
theorem linear_apply (x0 : FVec Ideal S5000x128 .f32) (x1 : FVec Ideal S128x64 .f32) (x2 : FVec Ideal S1x64 .f32)
    (p : Fin 5000) (q : Fin 64) :
    k4_pay1 (F := Ideal) x0 x1 x2 (ix2 p q) = (∑ k : Fin 128, x0 (ix2 p k) * x1 (ix2 k q)) + x2 (ix2 (0 : Fin 1) q) := by
  have e0 : shapeCast S5000x128 x0 = x0 := shapeCast_self x0 _
  have hb : broadcastTo S5000x64 (shapeCast S1x64 x2 shapeCasts_S1x64_S1x64) broadcasts_S1x64_S5000x64 (ix2 p q) = x2 (ix2 (0 : Fin 1) q) := by
    rw [shapeCast_self]; exact broadcastTo_1b_ab_apply x2 _ p q
  show matmul dot_S5000x128_S128x64_S5000x64_1_0_0_1_n_n none (truncf .bf16 (shapeCast S5000x128 x0) bitsLt_bf16_f32)
        (truncf .bf16 x1 bitsLt_bf16_f32) (constant S5000x64 .f32 0x00000000#32) (ix2 p q)
      + broadcastTo S5000x64 (shapeCast S1x64 x2 shapeCasts_S1x64_S1x64) broadcasts_S1x64_S5000x64 (ix2 p q) = _
  rw [e0, hb]
  exact congrArg (· + x2 (ix2 (0 : Fin 1) q))
    (Cert.RowsByCols.matmul_zero_apply dot_S5000x128_S128x64_S5000x64_1_0_0_1_n_n ⟨rfl, rfl, rfl, rfl, rfl, rfl⟩ none
      (truncf .bf16 x0 bitsLt_bf16_f32) (truncf .bf16 x1 bitsLt_bf16_f32) p q)

/-- The index maps over the grid: the table's and the output's blocks move together along the rows, the weight
    matrix and the bias row stay whole, and there are ten row blocks. -/
theorem index_facts : ∀ t : Fin cfg4.N, win4_0.index t (0 : Fin 2) = win4_3.index t (0 : Fin 2)
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (1 : Fin 2) = 0
    ∧ win4_3.index t (0 : Fin 2) ≤ 9 :=
  (by decide +kernel : ∀ t : Fin grid4.N, _)

/-- Every row block is some point's. -/
theorem index_onto : ∀ q0 : Fin 10, ∃ t : Fin cfg4.N, win4_3.index t = ![q0.val, 0] :=
  (by decide +kernel : ∀ q0 : Fin 10, ∃ t : Fin grid4.N, win4_3.index t = ![q0.val, 0])

/-- What point t writes back is rows 5000·t … of the whole-array function. -/
theorem written_eq (c : Dev nD) (t : Fin cfg4.N) :
    (dat4 V c).flushed 3 t = ((cfg4.win 3).blk t).view.read (Elt Ideal)
      (biasRow (N := 50000) (C := 64) (rowsByCols (N := 50000) (K := 128) (M := 64) (V c main_v63) (V c main_arg6)) (V c main_v64)) := by
  show (cfg4.win 3).cut (grid4.coords t) ((dat4 V c).after 3 t) = _
  rw [after4_3]
  unfold out4_3
  rw [View.canon_unit_zero origin]
  simp only [View.ld_unit_zero (S := S5000x128) origin, View.ld_unit_zero (S := S128x64) origin, View.ld_unit_zero (S := S1x64) origin]
  obtain ⟨e0, e1, e2, e3, e4, e5, e6, e7⟩ := index_facts t
  refine funext fun (j : S5000x64.Idx) => ?_
  obtain ⟨p, q, rfl⟩ : ∃ (p : Fin 5000) (q : Fin 64), j = ix2 p q := ⟨j 0, j 1, eq_ix2 j⟩
  show k4_pay1 (iblk4 V c 0 t) (iblk4 V c 1 t) (iblk4 V c 2 t) (ix2 p q) = _
  refine (linear_apply _ _ _ p q).trans ?_
  show (∑ k : Fin 128, (show FVec Ideal S50000x128 .f32 from V c main_v63) (((cfg4.win 0).blk t).view.emb (ix2 p k))
          * (show FVec Ideal S128x64 .f32 from V c main_arg6) (((cfg4.win 1).blk t).view.emb (ix2 k q)))
        + (show FVec Ideal S1x64 .f32 from V c main_v64) (((cfg4.win 2).blk t).view.emb (ix2 (0 : Fin 1) q))
      = (∑ k : Fin 128, (show FVec Ideal S50000x128 .f32 from V c main_v63) (ix2 ((((cfg4.win 3).blk t).view.emb (ix2 p q)) 0) k)
          * (show FVec Ideal S128x64 .f32 from V c main_arg6) (ix2 k ((((cfg4.win 3).blk t).view.emb (ix2 p q)) 1)))
        + (show FVec Ideal S1x64 .f32 from V c main_v64) (ix2 (0 : Fin 1) ((((cfg4.win 3).blk t).view.emb (ix2 p q)) 1))
  have h2 : ((cfg4.win 2).blk t).view.emb (ix2 (0 : Fin 1) q) = ix2 (0 : Fin 1) ((((cfg4.win 3).blk t).view.emb (ix2 p q)) 1) := by
    funext a; apply Fin.ext
    match a with
    | ⟨0, _⟩ => show win4_2.index t (0 : Fin 2) * 1 + 1 * 0 = 0; omega
    | ⟨1, _⟩ => show win4_2.index t (1 : Fin 2) * 64 + 1 * q.val = win4_3.index t (1 : Fin 2) * 64 + 1 * q.val; omega
  rw [h2]
  refine congrArg₂ (· + ·) (Finset.sum_congr rfl fun k _ => ?_) rfl
  have h0 : ((cfg4.win 0).blk t).view.emb (ix2 p k) = ix2 ((((cfg4.win 3).blk t).view.emb (ix2 p q)) 0) k := by
    funext a; apply Fin.ext
    match a with
    | ⟨0, _⟩ => show win4_0.index t (0 : Fin 2) * 5000 + 1 * p.val = win4_3.index t (0 : Fin 2) * 5000 + 1 * p.val; omega
    | ⟨1, _⟩ => show win4_0.index t (1 : Fin 2) * 128 + 1 * k.val = k.val; omega
  have h1 : ((cfg4.win 1).blk t).view.emb (ix2 k q) = ix2 k ((((cfg4.win 3).blk t).view.emb (ix2 p q)) 1) := by
    funext a; apply Fin.ext
    match a with
    | ⟨0, _⟩ => show win4_1.index t (0 : Fin 2) * 128 + 1 * k.val = k.val; omega
    | ⟨1, _⟩ => show win4_1.index t (1 : Fin 2) * 64 + 1 * q.val = win4_3.index t (1 : Fin 2) * 64 + 1 * q.val; omega
  rw [h0, h1]
  rfl

/-- An index of the output is in point t's block iff each coordinate is in the block's range on its axis. -/
theorem mem_block (t : Fin cfg4.N) (i : S50000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v65).slice (win4_3.rect t)).set ↔ _
  rw [View.set_slice_whole, Rect.mem_set_unit]
  exact Iff.rfl

/-- The row blocks tile the output: row r lies in block r / 5000. -/
theorem covered (i : S50000x64.Idx) :
    ∃ t : Fin cfg4.N, (cfg4.win 3).flush t = true ∧ i ∈ ((cfg4.win 3).blk t).view.set := by
  have hi0 : (i 0).val < 50000 := (i 0).isLt
  have hi1 : (i 1).val < 64 := (i 1).isLt
  obtain ⟨t, ht⟩ := index_onto ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_block]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 64 ≤ (i 1).val ∧ (i 1).val < win4_3.index t (1 : Fin 2) * 64 + 64; omega

/-- After the region its output array is the product of the table and the weight matrix as entered, with the bias
    row added to every row. -/
theorem result (c : Dev nD) :
    (dat4 V c).arrAt 3 cfg4.N
      = biasRow (N := 50000) (C := 64) (rowsByCols (N := 50000) (K := 128) (M := 64) (V c main_v63) (V c main_arg6)) (V c main_v64) :=
  (dat4 V c).arrAt_eq_of_cover 3 _ (fun t _ => written_eq V c t) covered

end Cert.KernelIdeal.Region4

end
-- ==== Proof.Stages.lean ====
/-
  The host stages of the graph convolution, as pure functions of arrays.

  An edge list ei [2, 800000] gives, with one self loop per node appended, the 850000 source nodes (row 0) and
  destination nodes (row 1). From the destinations: the degree of a node is the number of edges arriving at it,
  and its normaliser is 1/√degree where the degree is positive and 0 elsewhere. An edge's weight is the product
  of its two endpoints' normalisers. A node index is read by the gathers with negative values wrapped once by the
  node count. One aggregation step gathers a table's row at each edge's source, scales it by the edge's weight, and
  sums the scaled rows into the edge's destination, starting from the zero table. A bias vector [C] is used as
  the row [1, C].

  Both programs apply exactly these operations to the edge list; they are named here once so that neither side's
  proof ever opens a gather or a scatter.
-/
import proofs.«120929_j3917010174092_1_alg».proof.Proof.Gen.KernelIdeal
import Idealize.ShloMosaic.PureOps.Ideal
import proofs.«120929_j3917010174092_1_alg».proof.Proof.Spec

noncomputable section

namespace Cert.Gcn.Host

open Cert.KernelIdeal Cert.KernelIdeal.Facts₀ Cert.KernelIdeal.Facts Idealize.ShloMosaic

/-- An array of shape S and element type e over the extended reals. -/
abbrev Arr (S : Shape) (e : EltTy) : Type := (⟨S, e⟩ : BufTy).Contents (Elt Ideal)

/-- The source node of every edge, the self loops last. -/
def srcOf (ei : Arr S2x800000 .i32) : Arr S850000 .i32 :=
  concatenate S850000 0 [⟨S800000, shapeCast S800000 (extractStridedSlice S1x800000 ![0, 0] ei slices_S2x800000_S1x800000_0_0) shapeCasts_S1x800000_S800000⟩,
    ⟨S50000, iotaInDim S50000 32 0⟩] concatenates_S800000_S50000_S850000_d0

/-- The destination node of every edge, the self loops last. -/
def dstOf (ei : Arr S2x800000 .i32) : Arr S850000 .i32 :=
  concatenate S850000 0 [⟨S800000, shapeCast S800000 (extractStridedSlice S1x800000 ![1, 0] ei slices_S2x800000_S1x800000_1_0) shapeCasts_S1x800000_S800000⟩,
    ⟨S50000, iotaInDim S50000 32 0⟩] concatenates_S800000_S50000_S850000_d0

/-- The number of edges arriving at each node. -/
def degree (dst : Arr S850000 .i32) : Arr S50000 .f32 :=
  Host.scatterAdd (F := Ideal) scatter_S50000_S850000x1_S850000_n_0_0_1
    (broadcastInDim S50000 ![] bcast_S_S50000 (constant (F := Ideal) S_ .f32 0x00000000#32))
    (broadcastInDim S850000x1 ![0] bcast_S850000_S850000x1_0 dst)
    (broadcastInDim S850000 ![] bcast_S_S850000 (constant (F := Ideal) S_ .f32 0x3F800000#32))

/-- Where the degree is positive. -/
def degreePositive (dst : Arr S850000 .i32) : Arr S50000 .i1 :=
  cmpf .ogt (degree dst) (broadcastInDim S50000 ![] bcast_S_S50000 (constant (F := Ideal) S_ .f32 0x00000000#32))

/-- The inverse square root of the degree, the degree first raised to a small positive floor. -/
def degreeRsqrt (dst : Arr S850000 .i32) : Arr S50000 .f32 :=
  Host.rsqrt (F := Ideal) (maximumf (degree dst) (broadcastInDim S50000 ![] bcast_S_S50000 (constant (F := Ideal) S_ .f32 0x2B8CBCCC#32)))

/-- A node's normaliser: the inverse square root of its degree where that is positive, zero elsewhere. -/
def normaliser (pos : Arr S50000 .i1) (rs : Arr S50000 .f32) (zero : Arr S_ .f32) : Arr S50000 .f32 :=
  select pos rs (broadcastInDim S50000 ![] bcast_S_S50000 (id zero))

/-- A node index as the gathers read it: a negative value wrapped once by the node count. -/
def wrapped (ix : Arr S850000 .i32) : Arr S850000x1 .i32 :=
  broadcastInDim S850000x1 ![0] bcast_S850000_S850000x1_0
    (select (cmpi .slt ix (broadcastInDim S850000 ![] bcast_S_S850000 (constantI S_ 32 0#32)))
      (addi ix (broadcastInDim S850000 ![] bcast_S_S850000 (constantI S_ 32 50000#32))) ix)

/-- Every edge's weight: the product of its two endpoints' normalisers. -/
def edgeWeight (nrm : Arr S50000 .f32) (src dst : Arr S850000 .i32) : Arr S850000 .f32 :=
  mulf (F := Ideal) (s := S850000) (φ := .f32) (Host.gather gather_S50000_S850000x1_S850000_n_0_n_n_0_1_1 nrm (wrapped src))
    (Host.gather gather_S50000_S850000x1_S850000_n_0_n_n_0_1_1 nrm (wrapped dst))

/-- One aggregation step: each edge carries its source's row of the table, scaled by the edge's weight, into its
    destination's row, the sums starting from zero. -/
def aggregate (h : Arr S50000x128 .f32) (src dst : Arr S850000 .i32) (w : Arr S850000 .f32) : Arr S50000x128 .f32 :=
  Host.scatterAdd (F := Ideal) scatter_S50000x128_S850000x1_S850000x128_1_0_0_1
    (broadcastInDim S50000x128 ![] bcast_S_S50000x128 (constant (F := Ideal) S_ .f32 0x00000000#32))
    (broadcastInDim S850000x1 ![0] bcast_S850000_S850000x1_0 dst)
    (mulf (F := Ideal) (s := S850000x128) (φ := .f32) (Host.gather gather_S50000x128_S850000x1_S850000x128_1_0_n_n_0_1_1128 h (wrapped src))
      (broadcastInDim S850000x128 ![0, 1] bcast_S850000x1_S850000x128_0_1 (broadcastInDim S850000x1 ![0] bcast_S850000_S850000x1_0 w)))

/-- A bias vector of 128 entries as a row. -/
def row128 (b : Arr S128 .f32) : Arr S1x128 .f32 := shapeCast S1x128 b shapeCasts_S128_S1x128

/-- A bias vector of 64 entries as a row. -/
def row64 (b : Arr S64 .f32) : Arr S1x64 .f32 := shapeCast S1x64 b shapeCasts_S64_S1x64

/-- The slope constant of the leaky step, as its binary value. -/
abbrev slope : EReal := Ideal.ofBits .f32 0x3C23D70A#32

/-- Every edge's weight, from the edge list alone. -/
def weightOf (ei : Arr S2x800000 .i32) : Arr S850000 .f32 :=
  edgeWeight (normaliser (degreePositive (dstOf ei)) (degreeRsqrt (dstOf ei)) (constant (F := Ideal) S_ .f32 0x00000000#32))
    (srcOf ei) (dstOf ei)

/-- One convolution layer: the table times the weight matrix, aggregated along the edges, plus the bias row, then
    the leaky slope. -/
def layer (x : Arr S50000x128 .f32) (ei : Arr S2x800000 .i32) (W : Arr S128x128 .f32) (b : Arr S128 .f32) : Arr S50000x128 .f32 :=
  Cert.Gcn.biasLeaky (N := 50000) (C := 128) slope
    (aggregate (Cert.Gcn.rowsByCols (N := 50000) (K := 128) (M := 128) x W) (srcOf ei) (dstOf ei) (weightOf ei)) (row128 b)

/-- The whole model: two layers, then the final linear map. -/
def gcnOut (x : Arr S50000x128 .f32) (ei : Arr S2x800000 .i32) (W1 : Arr S128x128 .f32) (b1 : Arr S128 .f32)
    (W2 : Arr S128x128 .f32) (b2 : Arr S128 .f32) (Wfc : Arr S128x64 .f32) (bfc : Arr S64 .f32) : Arr S50000x64 .f32 :=
  Cert.Gcn.biasRow (N := 50000) (C := 64)
    (Cert.Gcn.rowsByCols (N := 50000) (K := 128) (M := 64) (layer (layer x ei W1 b1) ei W2 b2) Wfc) (row64 bfc)

end Cert.Gcn.Host

end
-- ==== Proof.LibTypedRefCasts.lean ====
/-
  A typed buffer reference carries the type T of the value it holds together with a proof that the buffer's
  own type is T; contents are moved between the two spellings of that one type along the proof. Moving a
  value to the buffer's spelling and back again gives the value: the two moves are transports along a
  proof and along its inverse.
-/
import Idealize.ShloMosaic.Lib.StableHlo.Run

namespace Cert.LibTypedRefCasts

open Idealize.ShloMosaic Idealize.ShloMosaic.StableHlo

variable {sig : RefSig} {Val : EltTy → Type} {T : BufTy}

/-- Contents written at a typed reference and read back through it are unchanged. -/
theorem ofBuf_toBuf (x : TRef sig T) (v : T.Contents Val) : x.ofBuf (x.toBuf v) = v := by
  simp only [TRef.ofBuf, TRef.toBuf, cast_cast, cast_eq]

/-- Contents read through a typed reference and written back through it are unchanged. -/
theorem toBuf_ofBuf (x : TRef sig T) (v : x.ref.ty.Contents Val) : x.toBuf (x.ofBuf v) = v := by
  simp only [TRef.ofBuf, TRef.toBuf, cast_cast, cast_eq]

end Cert.LibTypedRefCasts
-- ==== Proof.KernelValue.lean ====
/-
  The idealized kernel program's result as one function of its arguments.

  The run leaves the result array at the last boundary's contents of the result buffer (the run module). Those
  contents are read backwards through the program, one segment at a time:
  * a region's output array is the whole-array function of the arrays the region found (the five region modules);
  * a host stretch's result buffer is the stretch's stage function of the buffers the stretch reads (the lemmas of
    the first half of this module: the fold of the stretch's operations, unrolled);
  * a buffer that no later stretch writes and no later region owns still holds what it held when the first region
    was entered: the edge endpoints, the edge weights and the arguments are of this kind.
  Composed, the result array is two convolution layers and the final linear map applied to the launch contents of
  the arguments.
-/
import proofs.«120929_j3917010174092_1_alg».proof.Proof.KernelRun
import proofs.«120929_j3917010174092_1_alg».proof.Proof.Region0
import proofs.«120929_j3917010174092_1_alg».proof.Proof.Region1
import proofs.«120929_j3917010174092_1_alg».proof.Proof.Region2
import proofs.«120929_j3917010174092_1_alg».proof.Proof.Region3
import proofs.«120929_j3917010174092_1_alg».proof.Proof.Region4
import proofs.«120929_j3917010174092_1_alg».proof.Proof.Stages
import proofs.«120929_j3917010174092_1_alg».proof.Proof.LibTypedRefCasts
import Idealize.ShloMosaic.Lib.StableHlo.Run

set_option maxRecDepth 16384

noncomputable section

namespace Cert.KernelIdeal.Val

open Cert.KernelIdeal Cert.KernelIdeal.Gen Cert.Gcn Cert.Gcn.Host Cert.LibTypedRefCasts
open Idealize.ShloMosaic Idealize.ShloMosaic.TcCoe Idealize.SL.Sem Idealize.ShloMosaic.StableHlo

/-! ## The host stretches, each read at the buffers later segments need -/

section Stretches

variable (V : Valuation τ sig (Elt Ideal))

/-- The three stretches before the first region, as one line. -/
abbrev opening : List (HloOp τ sig (Elt Ideal)) := hostOps0 ++ (hostOps0_1 ++ hostOps0_2)

set_option maxHeartbeats 2000000 in
/-- After the opening line the source buffer holds the edge sources. -/
theorem opening_src : after opening V (Proc.devRef .tc main_v3 : DevRef τ sig) = srcOf (V (Proc.devRef .tc main_arg1 : DevRef τ sig)) := by
  simp only [opening, hostOps0, hostOps0_1, hostOps0_2, List.cons_append, List.nil_append]
  after_results_simp
  rfl

set_option maxHeartbeats 2000000 in
/-- After the opening line the destination buffer holds the edge destinations. -/
theorem opening_dst : after opening V (Proc.devRef .tc main_v6 : DevRef τ sig) = dstOf (V (Proc.devRef .tc main_arg1 : DevRef τ sig)) := by
  simp only [opening, hostOps0, hostOps0_1, hostOps0_2, List.cons_append, List.nil_append]
  after_results_simp
  rfl

/-! The edge weights are read stretch by stretch: the first stretch's positivity mask, inverse root and zero; the
    second stretch's normaliser of those three; the third stretch's weights of the normaliser and the endpoints. -/

set_option maxHeartbeats 2000000 in
theorem opening0_src : after hostOps0 V (Proc.devRef .tc main_v3 : DevRef τ sig) = srcOf (V (Proc.devRef .tc main_arg1 : DevRef τ sig)) := by
  simp only [hostOps0]
  after_results_simp
  rfl

set_option maxHeartbeats 2000000 in
theorem opening0_dst : after hostOps0 V (Proc.devRef .tc main_v6 : DevRef τ sig) = dstOf (V (Proc.devRef .tc main_arg1 : DevRef τ sig)) := by
  simp only [hostOps0]
  after_results_simp
  rfl

set_option maxHeartbeats 2000000 in
theorem opening0_positive : after hostOps0 V (Proc.devRef .tc main_v12 : DevRef τ sig) = degreePositive (dstOf (V (Proc.devRef .tc main_arg1 : DevRef τ sig))) := by
  simp only [hostOps0]
  after_results_simp
  rfl

set_option maxHeartbeats 2000000 in
theorem opening0_rsqrt : after hostOps0 V (Proc.devRef .tc main_v15 : DevRef τ sig) = degreeRsqrt (dstOf (V (Proc.devRef .tc main_arg1 : DevRef τ sig))) := by
  simp only [hostOps0]
  after_results_simp
  rfl

set_option maxHeartbeats 2000000 in
theorem opening0_zero : after hostOps0 V (Proc.devRef .tc main_cst_3 : DevRef τ sig) = constant (F := Ideal) S_ .f32 0x00000000#32 := by
  simp only [hostOps0]
  after_results_simp

theorem opening1_normaliser : after hostOps0_1 V (Proc.devRef .tc main_v16 : DevRef τ sig)
    = normaliser (V (Proc.devRef .tc main_v12 : DevRef τ sig)) (V (Proc.devRef .tc main_v15 : DevRef τ sig)) (V (Proc.devRef .tc main_cst_3 : DevRef τ sig)) := by
  simp only [hostOps0_1]
  after_results_simp
  simp only [ofBuf_toBuf, toBuf_ofBuf]
  rfl

theorem opening1_keeps_v3 : after hostOps0_1 V (Proc.devRef .tc main_v3 : DevRef τ sig) = V (Proc.devRef .tc main_v3 : DevRef τ sig) := by
  simp only [hostOps0_1]
  after_results_simp

theorem opening1_keeps_v6 : after hostOps0_1 V (Proc.devRef .tc main_v6 : DevRef τ sig) = V (Proc.devRef .tc main_v6 : DevRef τ sig) := by
  simp only [hostOps0_1]
  after_results_simp

set_option maxHeartbeats 2000000 in
theorem opening2_weight : after hostOps0_2 V (Proc.devRef .tc main_v31 : DevRef τ sig)
    = edgeWeight (V (Proc.devRef .tc main_v16 : DevRef τ sig)) (V (Proc.devRef .tc main_v3 : DevRef τ sig)) (V (Proc.devRef .tc main_v6 : DevRef τ sig)) := by
  simp only [hostOps0_2]
  after_results_simp
  rfl

set_option maxHeartbeats 2000000 in
/-- The opening line writes no argument. -/
theorem opening_arg0 : after opening V (Proc.devRef .tc main_arg0 : DevRef τ sig) = V (Proc.devRef .tc main_arg0 : DevRef τ sig) := by
  simp only [opening, hostOps0, hostOps0_1, hostOps0_2, List.cons_append, List.nil_append]
  after_results_simp

set_option maxHeartbeats 2000000 in
/-- The opening line writes no argument. -/
theorem opening_arg2 : after opening V (Proc.devRef .tc main_arg2 : DevRef τ sig) = V (Proc.devRef .tc main_arg2 : DevRef τ sig) := by
  simp only [opening, hostOps0, hostOps0_1, hostOps0_2, List.cons_append, List.nil_append]
  after_results_simp

set_option maxHeartbeats 2000000 in
/-- The opening line writes no argument. -/
theorem opening_arg3 : after opening V (Proc.devRef .tc main_arg3 : DevRef τ sig) = V (Proc.devRef .tc main_arg3 : DevRef τ sig) := by
  simp only [opening, hostOps0, hostOps0_1, hostOps0_2, List.cons_append, List.nil_append]
  after_results_simp

set_option maxHeartbeats 2000000 in
/-- The opening line writes no argument. -/
theorem opening_arg4 : after opening V (Proc.devRef .tc main_arg4 : DevRef τ sig) = V (Proc.devRef .tc main_arg4 : DevRef τ sig) := by
  simp only [opening, hostOps0, hostOps0_1, hostOps0_2, List.cons_append, List.nil_append]
  after_results_simp

set_option maxHeartbeats 2000000 in
/-- The opening line writes no argument. -/
theorem opening_arg5 : after opening V (Proc.devRef .tc main_arg5 : DevRef τ sig) = V (Proc.devRef .tc main_arg5 : DevRef τ sig) := by
  simp only [opening, hostOps0, hostOps0_1, hostOps0_2, List.cons_append, List.nil_append]
  after_results_simp

set_option maxHeartbeats 2000000 in
/-- The opening line writes no argument. -/
theorem opening_arg6 : after opening V (Proc.devRef .tc main_arg6 : DevRef τ sig) = V (Proc.devRef .tc main_arg6 : DevRef τ sig) := by
  simp only [opening, hostOps0, hostOps0_1, hostOps0_2, List.cons_append, List.nil_append]
  after_results_simp

set_option maxHeartbeats 2000000 in
/-- The opening line writes no argument. -/
theorem opening_arg7 : after opening V (Proc.devRef .tc main_arg7 : DevRef τ sig) = V (Proc.devRef .tc main_arg7 : DevRef τ sig) := by
  simp only [opening, hostOps0, hostOps0_1, hostOps0_2, List.cons_append, List.nil_append]
  after_results_simp

set_option maxHeartbeats 2000000 in
/-- The stretch after the first product region aggregates that region's output along the edges. -/
theorem first_agg : after hostOps1 V (Proc.devRef .tc main_v45 : DevRef τ sig)
    = aggregate (V (Proc.devRef .tc main_v32 : DevRef τ sig)) (V (Proc.devRef .tc main_v3 : DevRef τ sig)) (V (Proc.devRef .tc main_v6 : DevRef τ sig)) (V (Proc.devRef .tc main_v31 : DevRef τ sig)) := by
  simp only [hostOps1]
  after_results_simp
  rfl

set_option maxHeartbeats 2000000 in
/-- … and lays the first bias vector out as a row. -/
theorem first_row : after hostOps1 V (Proc.devRef .tc main_v46 : DevRef τ sig) = row128 (V (Proc.devRef .tc main_arg3 : DevRef τ sig)) := by
  simp only [hostOps1]
  after_results_simp
  rfl

set_option maxHeartbeats 2000000 in
theorem first_keeps_v3 : after hostOps1 V (Proc.devRef .tc main_v3 : DevRef τ sig) = V (Proc.devRef .tc main_v3 : DevRef τ sig) := by
  simp only [hostOps1]
  after_results_simp

set_option maxHeartbeats 2000000 in
theorem first_keeps_v6 : after hostOps1 V (Proc.devRef .tc main_v6 : DevRef τ sig) = V (Proc.devRef .tc main_v6 : DevRef τ sig) := by
  simp only [hostOps1]
  after_results_simp

set_option maxHeartbeats 2000000 in
theorem first_keeps_v31 : after hostOps1 V (Proc.devRef .tc main_v31 : DevRef τ sig) = V (Proc.devRef .tc main_v31 : DevRef τ sig) := by
  simp only [hostOps1]
  after_results_simp

set_option maxHeartbeats 2000000 in
theorem first_keeps_arg4 : after hostOps1 V (Proc.devRef .tc main_arg4 : DevRef τ sig) = V (Proc.devRef .tc main_arg4 : DevRef τ sig) := by
  simp only [hostOps1]
  after_results_simp

set_option maxHeartbeats 2000000 in
theorem first_keeps_arg5 : after hostOps1 V (Proc.devRef .tc main_arg5 : DevRef τ sig) = V (Proc.devRef .tc main_arg5 : DevRef τ sig) := by
  simp only [hostOps1]
  after_results_simp

set_option maxHeartbeats 2000000 in
theorem first_keeps_arg6 : after hostOps1 V (Proc.devRef .tc main_arg6 : DevRef τ sig) = V (Proc.devRef .tc main_arg6 : DevRef τ sig) := by
  simp only [hostOps1]
  after_results_simp

set_option maxHeartbeats 2000000 in
theorem first_keeps_arg7 : after hostOps1 V (Proc.devRef .tc main_arg7 : DevRef τ sig) = V (Proc.devRef .tc main_arg7 : DevRef τ sig) := by
  simp only [hostOps1]
  after_results_simp

set_option maxHeartbeats 2000000 in
/-- The stretch after the second product region aggregates that region's output along the edges. -/
theorem second_agg : after hostOps3 V (Proc.devRef .tc main_v61 : DevRef τ sig)
    = aggregate (V (Proc.devRef .tc main_v48 : DevRef τ sig)) (V (Proc.devRef .tc main_v3 : DevRef τ sig)) (V (Proc.devRef .tc main_v6 : DevRef τ sig)) (V (Proc.devRef .tc main_v31 : DevRef τ sig)) := by
  simp only [hostOps3]
  after_results_simp
  rfl

set_option maxHeartbeats 2000000 in
/-- … and lays the second bias vector out as a row. -/
theorem second_row : after hostOps3 V (Proc.devRef .tc main_v62 : DevRef τ sig) = row128 (V (Proc.devRef .tc main_arg5 : DevRef τ sig)) := by
  simp only [hostOps3]
  after_results_simp
  rfl

set_option maxHeartbeats 2000000 in
theorem second_keeps_arg6 : after hostOps3 V (Proc.devRef .tc main_arg6 : DevRef τ sig) = V (Proc.devRef .tc main_arg6 : DevRef τ sig) := by
  simp only [hostOps3]
  after_results_simp

set_option maxHeartbeats 2000000 in
theorem second_keeps_arg7 : after hostOps3 V (Proc.devRef .tc main_arg7 : DevRef τ sig) = V (Proc.devRef .tc main_arg7 : DevRef τ sig) := by
  simp only [hostOps3]
  after_results_simp

/-- The last stretch lays the final bias vector out as a row. -/
theorem last_row : after hostOps4 V (Proc.devRef .tc main_v64 : DevRef τ sig) = row64 (V (Proc.devRef .tc main_arg7 : DevRef τ sig)) := by
  simp only [hostOps4]
  after_results_simp
  rfl

theorem last_keeps_v63 : after hostOps4 V (Proc.devRef .tc main_v63 : DevRef τ sig) = V (Proc.devRef .tc main_v63 : DevRef τ sig) := by
  simp only [hostOps4]
  after_results_simp

theorem last_keeps_arg6 : after hostOps4 V (Proc.devRef .tc main_arg6 : DevRef τ sig) = V (Proc.devRef .tc main_arg6 : DevRef τ sig) := by
  simp only [hostOps4]
  after_results_simp

end Stretches

/-! ## Congruences of the stage functions -/

theorem aggregate_congr {h h' : Arr S50000x128 .f32} {s s' d d' : Arr S850000 .i32} {w w' : Arr S850000 .f32}
    (e1 : h = h') (e2 : s = s') (e3 : d = d') (e4 : w = w') : aggregate h s d w = aggregate h' s' d' w' := by
  subst e1 e2 e3 e4; rfl

theorem edgeWeight_congr {n n' : Arr S50000 .f32} {s s' d d' : Arr S850000 .i32}
    (e1 : n = n') (e2 : s = s') (e3 : d = d') : edgeWeight n s d = edgeWeight n' s' d' := by subst e1 e2 e3; rfl

theorem normaliser_congr {p p' : Arr S50000 .i1} {r r' : Arr S50000 .f32} {z z' : Arr S_ .f32}
    (e1 : p = p') (e2 : r = r') (e3 : z = z') : normaliser p r z = normaliser p' r' z' := by subst e1 e2 e3; rfl

theorem rowsByCols_congr {N K M : Nat} {A A' : FVec Ideal ⟨2, ![N, K]⟩ .f32} {B B' : FVec Ideal ⟨2, ![K, M]⟩ .f32}
    (e1 : A = A') (e2 : B = B') : rowsByCols A B = rowsByCols A' B' := by subst e1 e2; rfl

theorem biasLeaky_congr {N C : Nat} (s : EReal) {A A' : FVec Ideal ⟨2, ![N, C]⟩ .f32} {b b' : FVec Ideal ⟨2, ![1, C]⟩ .f32}
    (e1 : A = A') (e2 : b = b') : biasLeaky s A b = biasLeaky s A' b' := by subst e1 e2; rfl

theorem biasRow_congr {N C : Nat} {A A' : FVec Ideal ⟨2, ![N, C]⟩ .f32} {b b' : FVec Ideal ⟨2, ![1, C]⟩ .f32}
    (e1 : A = A') (e2 : b = b') : biasRow A b = biasRow A' b' := by subst e1 e2; rfl

/-! ## The boundaries, read backwards -/

variable (m : (ℓ : Loc nD τ sig) → Buf (Elt Ideal) ℓ) (ρ : Dev nD → PrngReg) (c : Dev nD)

/-- The contents at the first region's entry are the opening line's fold over the launch contents. -/
theorem entry_fold : W3 m ρ c = after opening (W0 m ρ c) := by
  show after hostOps0_2 (after hostOps0_1 (after hostOps0 (W0 m ρ c))) = after (hostOps0 ++ (hostOps0_1 ++ hostOps0_2)) (W0 m ρ c)
  rw [StableHlo.after_append, StableHlo.after_append]

theorem entry_src : W3 m ρ c (Proc.devRef .tc main_v3 : DevRef τ sig) = srcOf (m ((c : Thread nD τ).loc main_arg1)) :=
  (congrFun (entry_fold m ρ c) _).trans (opening_src (W0 m ρ c))
theorem entry_dst : W3 m ρ c (Proc.devRef .tc main_v6 : DevRef τ sig) = dstOf (m ((c : Thread nD τ).loc main_arg1)) :=
  (congrFun (entry_fold m ρ c) _).trans (opening_dst (W0 m ρ c))
theorem entry_weight : W3 m ρ c (Proc.devRef .tc main_v31 : DevRef τ sig) = weightOf (m ((c : Thread nD τ).loc main_arg1)) :=
  (opening2_weight (W2 m ρ c)).trans (edgeWeight_congr
    ((opening1_normaliser (W1 m ρ c)).trans (normaliser_congr (opening0_positive (W0 m ρ c)) (opening0_rsqrt (W0 m ρ c)) (opening0_zero (W0 m ρ c))))
    ((opening1_keeps_v3 (W1 m ρ c)).trans (opening0_src (W0 m ρ c)))
    ((opening1_keeps_v6 (W1 m ρ c)).trans (opening0_dst (W0 m ρ c))))
theorem entry_arg0 : W3 m ρ c (Proc.devRef .tc main_arg0 : DevRef τ sig) = (m ((c : Thread nD τ).loc main_arg0)) :=
  (congrFun (entry_fold m ρ c) _).trans (opening_arg0 (W0 m ρ c))
theorem entry_arg2 : W3 m ρ c (Proc.devRef .tc main_arg2 : DevRef τ sig) = (m ((c : Thread nD τ).loc main_arg2)) :=
  (congrFun (entry_fold m ρ c) _).trans (opening_arg2 (W0 m ρ c))
theorem entry_arg3 : W3 m ρ c (Proc.devRef .tc main_arg3 : DevRef τ sig) = (m ((c : Thread nD τ).loc main_arg3)) :=
  (congrFun (entry_fold m ρ c) _).trans (opening_arg3 (W0 m ρ c))
theorem entry_arg4 : W3 m ρ c (Proc.devRef .tc main_arg4 : DevRef τ sig) = (m ((c : Thread nD τ).loc main_arg4)) :=
  (congrFun (entry_fold m ρ c) _).trans (opening_arg4 (W0 m ρ c))
theorem entry_arg5 : W3 m ρ c (Proc.devRef .tc main_arg5 : DevRef τ sig) = (m ((c : Thread nD τ).loc main_arg5)) :=
  (congrFun (entry_fold m ρ c) _).trans (opening_arg5 (W0 m ρ c))
theorem entry_arg6 : W3 m ρ c (Proc.devRef .tc main_arg6 : DevRef τ sig) = (m ((c : Thread nD τ).loc main_arg6)) :=
  (congrFun (entry_fold m ρ c) _).trans (opening_arg6 (W0 m ρ c))
theorem entry_arg7 : W3 m ρ c (Proc.devRef .tc main_arg7 : DevRef τ sig) = (m ((c : Thread nD τ).loc main_arg7)) :=
  (congrFun (entry_fold m ρ c) _).trans (opening_arg7 (W0 m ρ c))

/-- After the first product region: the product of the node table and the first weight matrix. -/
theorem after_region0 : W4 m ρ c (Proc.devRef .tc main_v32 : DevRef τ sig)
    = rowsByCols (N := 50000) (K := 128) (M := 128) (m ((c : Thread nD τ).loc main_arg0)) (m ((c : Thread nD τ).loc main_arg2)) :=
  (W4_arr m ρ c 2).trans ((Region0.result (V3 m ρ) c).trans (rowsByCols_congr (entry_arg0 m ρ c) (entry_arg2 m ρ c)))

/-- A buffer the first region does not own holds at its exit what it held at its entry. -/
theorem kept4 (b : Ref sig .tc) (h : ∀ w, Pipeline.arrRef spec0 w ≠ b) :
    W4 m ρ c (Proc.devRef .tc b) = W3 m ρ c (Proc.devRef .tc b) := W4_of_ne m ρ c b h

/-- At the first bias region's entry: the aggregated first product, and the first bias row. -/
theorem before_region1_table : W5 m ρ c (Proc.devRef .tc main_v45 : DevRef τ sig)
    = aggregate (rowsByCols (N := 50000) (K := 128) (M := 128) (m ((c : Thread nD τ).loc main_arg0)) (m ((c : Thread nD τ).loc main_arg2)))
        (srcOf (m ((c : Thread nD τ).loc main_arg1))) (dstOf (m ((c : Thread nD τ).loc main_arg1))) (weightOf (m ((c : Thread nD τ).loc main_arg1))) :=
  (first_agg (W4 m ρ c)).trans (aggregate_congr (after_region0 m ρ c)
    ((kept4 m ρ c main_v3 (by decide)).trans (entry_src m ρ c))
    ((kept4 m ρ c main_v6 (by decide)).trans (entry_dst m ρ c))
    ((kept4 m ρ c main_v31 (by decide)).trans (entry_weight m ρ c)))

theorem before_region1_row : W5 m ρ c (Proc.devRef .tc main_v46 : DevRef τ sig) = row128 (m ((c : Thread nD τ).loc main_arg3)) :=
  (first_row (W4 m ρ c)).trans (congrArg row128 ((kept4 m ρ c main_arg3 (by decide)).trans (entry_arg3 m ρ c)))

/-- After the first bias region: the first layer's activations. -/
theorem after_region1 : W6 m ρ c (Proc.devRef .tc main_v47 : DevRef τ sig)
    = layer (m ((c : Thread nD τ).loc main_arg0)) (m ((c : Thread nD τ).loc main_arg1)) (m ((c : Thread nD τ).loc main_arg2)) (m ((c : Thread nD τ).loc main_arg3)) :=
  (W6_arr m ρ c 2).trans ((Region1.result (V5 m ρ) c).trans
    (biasLeaky_congr _ (before_region1_table m ρ c) (before_region1_row m ρ c)))

/-- A buffer that neither the first bias region, nor the second product region, nor the stretch between the first
    two regions touches: at the second product region's exit it holds what it held at the first region's entry. -/
theorem kept7 (b : Ref sig .tc) (h0 : ∀ w, Pipeline.arrRef spec0 w ≠ b) (h1 : ∀ w, Pipeline.arrRef spec1 w ≠ b)
    (h2 : ∀ w, Pipeline.arrRef spec2 w ≠ b) (g : ∀ V : Valuation τ sig (Elt Ideal), after hostOps1 V (Proc.devRef .tc b) = V (Proc.devRef .tc b)) :
    W7 m ρ c (Proc.devRef .tc b) = W3 m ρ c (Proc.devRef .tc b) :=
  (W7_of_ne m ρ c b h2).trans ((W6_of_ne m ρ c b h1).trans ((g (W4 m ρ c)).trans (W4_of_ne m ρ c b h0)))

/-- The second weight matrix at the second product region's entry. -/
theorem before_region2_weights : W6 m ρ c (Proc.devRef .tc main_arg4 : DevRef τ sig) = (m ((c : Thread nD τ).loc main_arg4)) :=
  (W6_of_ne m ρ c main_arg4 (by decide)).trans ((first_keeps_arg4 (W4 m ρ c)).trans
    ((kept4 m ρ c main_arg4 (by decide)).trans (entry_arg4 m ρ c)))

/-- After the second product region: the first layer's activations times the second weight matrix. -/
theorem after_region2 : W7 m ρ c (Proc.devRef .tc main_v48 : DevRef τ sig)
    = rowsByCols (N := 50000) (K := 128) (M := 128)
        (layer (m ((c : Thread nD τ).loc main_arg0)) (m ((c : Thread nD τ).loc main_arg1)) (m ((c : Thread nD τ).loc main_arg2)) (m ((c : Thread nD τ).loc main_arg3))) (m ((c : Thread nD τ).loc main_arg4)) :=
  (W7_arr m ρ c 2).trans ((Region2.result (V6 m ρ) c).trans
    (rowsByCols_congr (after_region1 m ρ c) (before_region2_weights m ρ c)))

/-- At the second bias region's entry: the aggregated second product, and the second bias row. -/
theorem before_region3_table : W8 m ρ c (Proc.devRef .tc main_v61 : DevRef τ sig)
    = aggregate (rowsByCols (N := 50000) (K := 128) (M := 128)
          (layer (m ((c : Thread nD τ).loc main_arg0)) (m ((c : Thread nD τ).loc main_arg1)) (m ((c : Thread nD τ).loc main_arg2)) (m ((c : Thread nD τ).loc main_arg3))) (m ((c : Thread nD τ).loc main_arg4)))
        (srcOf (m ((c : Thread nD τ).loc main_arg1))) (dstOf (m ((c : Thread nD τ).loc main_arg1))) (weightOf (m ((c : Thread nD τ).loc main_arg1))) :=
  (second_agg (W7 m ρ c)).trans (aggregate_congr (after_region2 m ρ c)
    ((kept7 m ρ c main_v3 (by decide) (by decide) (by decide) first_keeps_v3).trans (entry_src m ρ c))
    ((kept7 m ρ c main_v6 (by decide) (by decide) (by decide) first_keeps_v6).trans (entry_dst m ρ c))
    ((kept7 m ρ c main_v31 (by decide) (by decide) (by decide) first_keeps_v31).trans (entry_weight m ρ c)))

theorem before_region3_row : W8 m ρ c (Proc.devRef .tc main_v62 : DevRef τ sig) = row128 (m ((c : Thread nD τ).loc main_arg5)) :=
  (second_row (W7 m ρ c)).trans (congrArg row128
    ((kept7 m ρ c main_arg5 (by decide) (by decide) (by decide) first_keeps_arg5).trans (entry_arg5 m ρ c)))

/-- After the second bias region: the second layer's activations. -/
theorem after_region3 : W9 m ρ c (Proc.devRef .tc main_v63 : DevRef τ sig)
    = layer (layer (m ((c : Thread nD τ).loc main_arg0)) (m ((c : Thread nD τ).loc main_arg1)) (m ((c : Thread nD τ).loc main_arg2)) (m ((c : Thread nD τ).loc main_arg3)))
        (m ((c : Thread nD τ).loc main_arg1)) (m ((c : Thread nD τ).loc main_arg4)) (m ((c : Thread nD τ).loc main_arg5)) :=
  (W9_arr m ρ c 2).trans ((Region3.result (V8 m ρ) c).trans
    (biasLeaky_congr _ (before_region3_table m ρ c) (before_region3_row m ρ c)))

/-- An argument that the second bias region does not own and the stretch before it does not write: at that region's
    exit it holds its launch contents, given that it did at the second product region's exit. -/
theorem kept9 (b : Ref sig .tc) (h3 : ∀ w, Pipeline.arrRef spec3 w ≠ b)
    (g : ∀ V : Valuation τ sig (Elt Ideal), after hostOps3 V (Proc.devRef .tc b) = V (Proc.devRef .tc b)) :
    W9 m ρ c (Proc.devRef .tc b) = W7 m ρ c (Proc.devRef .tc b) :=
  (W9_of_ne m ρ c b h3).trans (g (W7 m ρ c))

/-- At the final region's entry: the second layer's activations, the final weight matrix, the final bias row. -/
theorem before_region4_table : W10 m ρ c (Proc.devRef .tc main_v63 : DevRef τ sig)
    = layer (layer (m ((c : Thread nD τ).loc main_arg0)) (m ((c : Thread nD τ).loc main_arg1)) (m ((c : Thread nD τ).loc main_arg2)) (m ((c : Thread nD τ).loc main_arg3)))
        (m ((c : Thread nD τ).loc main_arg1)) (m ((c : Thread nD τ).loc main_arg4)) (m ((c : Thread nD τ).loc main_arg5)) :=
  (last_keeps_v63 (W9 m ρ c)).trans (after_region3 m ρ c)

theorem before_region4_weights : W10 m ρ c (Proc.devRef .tc main_arg6 : DevRef τ sig) = (m ((c : Thread nD τ).loc main_arg6)) :=
  (last_keeps_arg6 (W9 m ρ c)).trans ((kept9 m ρ c main_arg6 (by decide) second_keeps_arg6).trans
    ((kept7 m ρ c main_arg6 (by decide) (by decide) (by decide) first_keeps_arg6).trans (entry_arg6 m ρ c)))

theorem before_region4_row : W10 m ρ c (Proc.devRef .tc main_v64 : DevRef τ sig) = row64 (m ((c : Thread nD τ).loc main_arg7)) :=
  (last_row (W9 m ρ c)).trans (congrArg row64 ((kept9 m ρ c main_arg7 (by decide) second_keeps_arg7).trans
    ((kept7 m ρ c main_arg7 (by decide) (by decide) (by decide) first_keeps_arg7).trans (entry_arg7 m ρ c))))

/-- The result array after the run: the whole model applied to the launch contents of the arguments. -/
theorem result_value : W11 m ρ c (Proc.devRef .tc main_v65 : DevRef τ sig)
    = gcnOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (Run.last_result m ρ c).trans ((Region4.result (V10 m ρ) c).trans
    (biasRow_congr (rowsByCols_congr (before_region4_table m ρ c) (before_region4_weights m ρ c)) (before_region4_row m ρ c)))

/-- Every weakly fair execution of the idealized kernel program terminates, nothing faulting, with the result array
    at the whole model of the arguments and every argument array as launched. -/
theorem run : θ_run defs (onTc (τ := τ) (main (F := Ideal))) ⟨m, fun _ => 0, ρ⟩ (fun r => ∀ c : Dev nD,
      r.2.mem ((c.tc : Thread nD τ).loc main_v65)
        = gcnOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_value m ρ c), (h c).2⟩) (Run.run_result m ρ)

end Cert.KernelIdeal.Val

end
-- ==== Proof.RefOps.lean ====
/- The reference program's host operations, in order, as nine consecutive stretches of one list (21 + 3 + 20 + 20 + 7 + 20 + 20 + 7 + 4 = 122 operations);
   the operations of an outlined function stand at its call, over that call's buffers. Definitions only. -/
import proofs.«120929_j3917010174092_1_alg».proof.Proof.Gen.ReferenceIdeal
import Idealize.ShloMosaic.Lib.StableHlo.Run

noncomputable section

namespace Cert.ReferenceIdeal.RefOps

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

abbrev opsA0 : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x2B8CBCCC#32),
    unary main_cst_2 main_v13 (broadcastInDim S50000 ![] bcast_S_S50000 : (⟨S_, .f32⟩ : BufTy).Contents (Elt F) → (⟨S50000, .f32⟩ : BufTy).Contents (Elt F)),
    binary main_v10 main_v13 main_v14 (maximumf : (⟨S50000, .f32⟩ : BufTy).Contents (Elt F) → (⟨S50000, .f32⟩ : BufTy).Contents (Elt F) → (⟨S50000, .f32⟩ : BufTy).Contents (Elt F)),
    unary main_v14 main_v15 (Host.rsqrt : (⟨S50000, .f32⟩ : BufTy).Contents (Elt F) → (⟨S50000, .f32⟩ : BufTy).Contents (Elt F)),
    nullary main_cst_3 (constant S_ .f32 0x00000000#32) ]

abbrev opsA1 : List (HloOp τ sig (Elt F)) :=
  [ TRef.unary (.of main_cst_3 : TRef sig ⟨S_, .f32⟩) main_call0.v0 id,
    TRef.unary main_call0.v0 main_call0.v1 (broadcastInDim S50000 ![] bcast_S_S50000),
    TRef.ternary (.of main_v12 : TRef sig ⟨S50000, .i1⟩) (.of main_v15 : TRef sig ⟨S50000, .f32⟩) main_call0.v1 main_call0.v2 select ]

abbrev opsB : List (HloOp τ sig (Elt F)) :=
  [ binary main_arg0 main_arg2 main_v17 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c (constantI S_ 32 0#32),
    unary main_c main_v18 (broadcastInDim S850000 ![] bcast_S_S850000 : (⟨S_, .i32⟩ : BufTy).Contents (Elt F) → (⟨S850000, .i32⟩ : BufTy).Contents (Elt F)),
    binary main_v3 main_v18 main_v19 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v20 (broadcastInDim S850000 ![] bcast_S_S850000 : (⟨S_, .i32⟩ : BufTy).Contents (Elt F) → (⟨S850000, .i32⟩ : BufTy).Contents (Elt F)),
    binary main_v3 main_v20 main_v21 (addi : (⟨S850000, .i32⟩ : BufTy).Contents (Elt F) → (⟨S850000, .i32⟩ : BufTy).Contents (Elt F) → (⟨S850000, .i32⟩ : BufTy).Contents (Elt F)),
    ternary main_v19 main_v21 main_v3 main_v22 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v22 main_v23 (broadcastInDim S850000x1 ![0] bcast_S850000_S850000x1_0 : (⟨S850000, .i32⟩ : BufTy).Contents (Elt F) → (⟨S850000x1, .i32⟩ : BufTy).Contents (Elt F)),
    binary main_v16 main_v23 main_v24 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_5 (constantI S_ 32 0#32),
    unary main_c_5 main_v25 (broadcastInDim S850000 ![] bcast_S_S850000 : (⟨S_, .i32⟩ : BufTy).Contents (Elt F) → (⟨S850000, .i32⟩ : BufTy).Contents (Elt F)),
    binary main_v6 main_v25 main_v26 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v27 (broadcastInDim S850000 ![] bcast_S_S850000 : (⟨S_, .i32⟩ : BufTy).Contents (Elt F) → (⟨S850000, .i32⟩ : BufTy).Contents (Elt F)),
    binary main_v6 main_v27 main_v28 (addi : (⟨S850000, .i32⟩ : BufTy).Contents (Elt F) → (⟨S850000, .i32⟩ : BufTy).Contents (Elt F) → (⟨S850000, .i32⟩ : BufTy).Contents (Elt F)),
    ternary main_v26 main_v28 main_v6 main_v29 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v29 main_v30 (broadcastInDim S850000x1 ![0] bcast_S850000_S850000x1_0 : (⟨S850000, .i32⟩ : BufTy).Contents (Elt F) → (⟨S850000x1, .i32⟩ : BufTy).Contents (Elt F)),
    binary main_v16 main_v30 main_v31 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v24 main_v31 main_v32 (mulf : (⟨S850000, .f32⟩ : BufTy).Contents (Elt F) → (⟨S850000, .f32⟩ : BufTy).Contents (Elt F) → (⟨S850000, .f32⟩ : BufTy).Contents (Elt F)) ]

abbrev opsC0 : List (HloOp τ sig (Elt F)) :=
  [ nullary main_c_7 (constantI S_ 32 0#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v35 (broadcastInDim S850000 ![] bcast_S_S850000 : (⟨S_, .i32⟩ : BufTy).Contents (Elt F) → (⟨S850000, .i32⟩ : BufTy).Contents (Elt F)),
    binary main_v3 main_v35 main_v36 (addi : (⟨S850000, .i32⟩ : BufTy).Contents (Elt F) → (⟨S850000, .i32⟩ : BufTy).Contents (Elt F) → (⟨S850000, .i32⟩ : BufTy).Contents (Elt F)),
    ternary main_v34 main_v36 main_v3 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v37 main_v38 (broadcastInDim S850000x1 ![0] bcast_S850000_S850000x1_0 : (⟨S850000, .i32⟩ : BufTy).Contents (Elt F) → (⟨S850000x1, .i32⟩ : BufTy).Contents (Elt F)),
    binary main_v17 main_v38 main_v39 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v32 main_v40 (broadcastInDim S850000x1 ![0] bcast_S850000_S850000x1_0 : (⟨S850000, .f32⟩ : BufTy).Contents (Elt F) → (⟨S850000x1, .f32⟩ : BufTy).Contents (Elt F)),
    unary main_v40 main_v41 (broadcastInDim S850000x128 ![0, 1] bcast_S850000x1_S850000x128_0_1 : (⟨S850000x1, .f32⟩ : BufTy).Contents (Elt F) → (⟨S850000x128, .f32⟩ : BufTy).Contents (Elt F)),
    binary main_v39 main_v41 main_v42 (mulf : (⟨S850000x128, .f32⟩ : BufTy).Contents (Elt F) → (⟨S850000x128, .f32⟩ : BufTy).Contents (Elt F) → (⟨S850000x128, .f32⟩ : BufTy).Contents (Elt F)),
    nullary main_cst_9 (constant S_ .f32 0x00000000#32),
    unary main_cst_9 main_v43 (broadcastInDim S50000x128 ![] bcast_S_S50000x128 : (⟨S_, .f32⟩ : BufTy).Contents (Elt F) → (⟨S50000x128, .f32⟩ : BufTy).Contents (Elt F)),
    unary main_v6 main_v44 (broadcastInDim S850000x1 ![0] bcast_S850000_S850000x1_0 : (⟨S850000, .i32⟩ : BufTy).Contents (Elt F) → (⟨S850000x1, .i32⟩ : BufTy).Contents (Elt F)),
    ternary main_v43 main_v44 main_v42 main_v45 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v46 (broadcastInDim S1x128 ![1] bcast_S128_S1x128_1 : (⟨S128, .f32⟩ : BufTy).Contents (Elt F) → (⟨S1x128, .f32⟩ : BufTy).Contents (Elt F)),
    unary main_v46 main_v47 (broadcastInDim S50000x128 ![0, 1] bcast_S1x128_S50000x128_0_1 : (⟨S1x128, .f32⟩ : BufTy).Contents (Elt F) → (⟨S50000x128, .f32⟩ : BufTy).Contents (Elt F)),
    binary main_v45 main_v47 main_v48 (addf : (⟨S50000x128, .f32⟩ : BufTy).Contents (Elt F) → (⟨S50000x128, .f32⟩ : BufTy).Contents (Elt F) → (⟨S50000x128, .f32⟩ : BufTy).Contents (Elt F)),
    nullary main_cst_10 (constant S_ .f32 0x3C23D70A#32) ]

abbrev opsC1 : List (HloOp τ sig (Elt F)) :=
  [ TRef.nullary main_call1.cst (constant S_ .f32 0x00000000#32),
    TRef.unary main_call1.cst main_call1.v0 (broadcastInDim S50000x128 ![] bcast_S_S50000x128),
    TRef.binary (.of main_v48 : TRef sig ⟨S50000x128, .f32⟩) main_call1.v0 main_call1.v1 (cmpf .oge),
    TRef.unary (.of main_cst_10 : TRef sig ⟨S_, .f32⟩) main_call1.v2 id,
    TRef.unary main_call1.v2 main_call1.v3 (broadcastInDim S50000x128 ![] bcast_S_S50000x128),
    TRef.binary main_call1.v3 (.of main_v48 : TRef sig ⟨S50000x128, .f32⟩) main_call1.v4 mulf,
    TRef.ternary main_call1.v1 (.of main_v48 : TRef sig ⟨S50000x128, .f32⟩) main_call1.v4 main_call1.call0.v0 select ]

abbrev opsD : List (HloOp τ sig (Elt F)) :=
  [ binary main_v49 main_arg4 main_v50 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_11 (constantI S_ 32 0#32),
    unary main_c_11 main_v51 (broadcastInDim S850000 ![] bcast_S_S850000 : (⟨S_, .i32⟩ : BufTy).Contents (Elt F) → (⟨S850000, .i32⟩ : BufTy).Contents (Elt F)),
    binary main_v3 main_v51 main_v52 (cmpi .slt : (⟨S850000, .i32⟩ : BufTy).Contents (Elt F) → (⟨S850000, .i32⟩ : BufTy).Contents (Elt F) → (⟨S850000, .i1⟩ : BufTy).Contents (Elt F)),
    nullary main_c_12 (constantI S_ 32 50000#32),
    unary main_c_12 main_v53 (broadcastInDim S850000 ![] bcast_S_S850000 : (⟨S_, .i32⟩ : BufTy).Contents (Elt F) → (⟨S850000, .i32⟩ : BufTy).Contents (Elt F)),
    binary main_v3 main_v53 main_v54 (addi : (⟨S850000, .i32⟩ : BufTy).Contents (Elt F) → (⟨S850000, .i32⟩ : BufTy).Contents (Elt F) → (⟨S850000, .i32⟩ : BufTy).Contents (Elt F)),
    ternary main_v52 main_v54 main_v3 main_v55 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v55 main_v56 (broadcastInDim S850000x1 ![0] bcast_S850000_S850000x1_0 : (⟨S850000, .i32⟩ : BufTy).Contents (Elt F) → (⟨S850000x1, .i32⟩ : BufTy).Contents (Elt F)),
    binary main_v16 main_v56 main_v57 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_13 (constantI S_ 32 0#32),
    unary main_c_13 main_v58 (broadcastInDim S850000 ![] bcast_S_S850000 : (⟨S_, .i32⟩ : BufTy).Contents (Elt F) → (⟨S850000, .i32⟩ : BufTy).Contents (Elt F)),
    binary main_v6 main_v58 main_v59 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v60 (broadcastInDim S850000 ![] bcast_S_S850000 : (⟨S_, .i32⟩ : BufTy).Contents (Elt F) → (⟨S850000, .i32⟩ : BufTy).Contents (Elt F)),
    binary main_v6 main_v60 main_v61 (addi : (⟨S850000, .i32⟩ : BufTy).Contents (Elt F) → (⟨S850000, .i32⟩ : BufTy).Contents (Elt F) → (⟨S850000, .i32⟩ : BufTy).Contents (Elt F)),
    ternary main_v59 main_v61 main_v6 main_v62 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v62 main_v63 (broadcastInDim S850000x1 ![0] bcast_S850000_S850000x1_0 : (⟨S850000, .i32⟩ : BufTy).Contents (Elt F) → (⟨S850000x1, .i32⟩ : BufTy).Contents (Elt F)),
    binary main_v16 main_v63 main_v64 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v57 main_v64 main_v65 (mulf : (⟨S850000, .f32⟩ : BufTy).Contents (Elt F) → (⟨S850000, .f32⟩ : BufTy).Contents (Elt F) → (⟨S850000, .f32⟩ : BufTy).Contents (Elt F)) ]

abbrev opsE0 : List (HloOp τ sig (Elt F)) :=
  [ nullary main_c_15 (constantI S_ 32 0#32),
    unary main_c_15 main_v66 (broadcastInDim S850000 ![] bcast_S_S850000 : (⟨S_, .i32⟩ : BufTy).Contents (Elt F) → (⟨S850000, .i32⟩ : BufTy).Contents (Elt F)),
    binary main_v3 main_v66 main_v67 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v68 (broadcastInDim S850000 ![] bcast_S_S850000 : (⟨S_, .i32⟩ : BufTy).Contents (Elt F) → (⟨S850000, .i32⟩ : BufTy).Contents (Elt F)),
    binary main_v3 main_v68 main_v69 (addi : (⟨S850000, .i32⟩ : BufTy).Contents (Elt F) → (⟨S850000, .i32⟩ : BufTy).Contents (Elt F) → (⟨S850000, .i32⟩ : BufTy).Contents (Elt F)),
    ternary main_v67 main_v69 main_v3 main_v70 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v70 main_v71 (broadcastInDim S850000x1 ![0] bcast_S850000_S850000x1_0 : (⟨S850000, .i32⟩ : BufTy).Contents (Elt F) → (⟨S850000x1, .i32⟩ : BufTy).Contents (Elt F)),
    binary main_v50 main_v71 main_v72 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v65 main_v73 (broadcastInDim S850000x1 ![0] bcast_S850000_S850000x1_0 : (⟨S850000, .f32⟩ : BufTy).Contents (Elt F) → (⟨S850000x1, .f32⟩ : BufTy).Contents (Elt F)),
    unary main_v73 main_v74 (broadcastInDim S850000x128 ![0, 1] bcast_S850000x1_S850000x128_0_1 : (⟨S850000x1, .f32⟩ : BufTy).Contents (Elt F) → (⟨S850000x128, .f32⟩ : BufTy).Contents (Elt F)),
    binary main_v72 main_v74 main_v75 (mulf : (⟨S850000x128, .f32⟩ : BufTy).Contents (Elt F) → (⟨S850000x128, .f32⟩ : BufTy).Contents (Elt F) → (⟨S850000x128, .f32⟩ : BufTy).Contents (Elt F)),
    nullary main_cst_17 (constant S_ .f32 0x00000000#32),
    unary main_cst_17 main_v76 (broadcastInDim S50000x128 ![] bcast_S_S50000x128 : (⟨S_, .f32⟩ : BufTy).Contents (Elt F) → (⟨S50000x128, .f32⟩ : BufTy).Contents (Elt F)),
    unary main_v6 main_v77 (broadcastInDim S850000x1 ![0] bcast_S850000_S850000x1_0 : (⟨S850000, .i32⟩ : BufTy).Contents (Elt F) → (⟨S850000x1, .i32⟩ : BufTy).Contents (Elt F)),
    ternary main_v76 main_v77 main_v75 main_v78 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v79 (broadcastInDim S1x128 ![1] bcast_S128_S1x128_1 : (⟨S128, .f32⟩ : BufTy).Contents (Elt F) → (⟨S1x128, .f32⟩ : BufTy).Contents (Elt F)),
    unary main_v79 main_v80 (broadcastInDim S50000x128 ![0, 1] bcast_S1x128_S50000x128_0_1 : (⟨S1x128, .f32⟩ : BufTy).Contents (Elt F) → (⟨S50000x128, .f32⟩ : BufTy).Contents (Elt F)),
    binary main_v78 main_v80 main_v81 (addf : (⟨S50000x128, .f32⟩ : BufTy).Contents (Elt F) → (⟨S50000x128, .f32⟩ : BufTy).Contents (Elt F) → (⟨S50000x128, .f32⟩ : BufTy).Contents (Elt F)),
    nullary main_cst_18 (constant S_ .f32 0x3C23D70A#32) ]

abbrev opsE1 : List (HloOp τ sig (Elt F)) :=
  [ TRef.nullary main_call2.cst (constant S_ .f32 0x00000000#32),
    TRef.unary main_call2.cst main_call2.v0 (broadcastInDim S50000x128 ![] bcast_S_S50000x128),
    TRef.binary (.of main_v81 : TRef sig ⟨S50000x128, .f32⟩) main_call2.v0 main_call2.v1 (cmpf .oge),
    TRef.unary (.of main_cst_18 : TRef sig ⟨S_, .f32⟩) main_call2.v2 id,
    TRef.unary main_call2.v2 main_call2.v3 (broadcastInDim S50000x128 ![] bcast_S_S50000x128),
    TRef.binary main_call2.v3 (.of main_v81 : TRef sig ⟨S50000x128, .f32⟩) main_call2.v4 mulf,
    TRef.ternary main_call2.v1 (.of main_v81 : TRef sig ⟨S50000x128, .f32⟩) main_call2.v4 main_call2.call0.v0 select ]

abbrev opsF : List (HloOp τ sig (Elt F)) :=
  [ binary main_v82 main_arg6 main_v83 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg7 main_v84 (broadcastInDim S1x64 ![1] bcast_S64_S1x64_1 : (⟨S64, .f32⟩ : BufTy).Contents (Elt F) → (⟨S1x64, .f32⟩ : BufTy).Contents (Elt F)),
    unary main_v84 main_v85 (broadcastInDim S50000x64 ![0, 1] bcast_S1x64_S50000x64_0_1 : (⟨S1x64, .f32⟩ : BufTy).Contents (Elt F) → (⟨S50000x64, .f32⟩ : BufTy).Contents (Elt F)),
    binary main_v83 main_v85 main_v86 (addf : (⟨S50000x64, .f32⟩ : BufTy).Contents (Elt F) → (⟨S50000x64, .f32⟩ : BufTy).Contents (Elt F) → (⟨S50000x64, .f32⟩ : BufTy).Contents (Elt F)) ]

/-- The whole line. -/
abbrev ops : List (HloOp τ sig (Elt F)) := opsA0 ++ (opsA1 ++ (opsB ++ (opsC0 ++ (opsC1 ++ (opsD ++ (opsE0 ++ (opsE1 ++ (opsF))))))))

end Cert.ReferenceIdeal.RefOps

end
-- ==== Proof.RefRun.lean ====
/-
  The reference program's run.

  The reference is one straight line of host operations: the functions it calls are each a few operations long and
  stand in the line at their calls. A straight line of host operations always terminates without a fault, and it
  leaves every buffer at the fold of the operations' results over the launch contents: an operation replaces the
  contents of the one buffer it writes by its function of the buffers it reads and keeps every other buffer.
-/
import proofs.«120929_j3917010174092_1_alg».proof.Proof.RefOps

noncomputable section

namespace Cert.ReferenceIdeal.RefRun

open Cert.ReferenceIdeal Cert.ReferenceIdeal.RefOps Cert.ReferenceIdeal.Facts₀ Cert.ReferenceIdeal.Facts
open Idealize.ShloMosaic Idealize.ShloMosaic.TcCoe Idealize.SL.Sem Idealize.ShloMosaic.StableHlo

variable {F : FTy → Type} [FloatOps F]

set_option maxRecDepth 8192 in
set_option maxHeartbeats 4000000 in
/-- The program is that line: with the called functions' bodies unfolded at their calls and the sequencing
    reassociated, both sides are one chain of single operations. -/
theorem main_eq (c : Dev nD) : main (F := F) c = seq ops := by
  simp only [main, main_part0, main_part1, fn_where.body, fn_where_0.body, fn_leaky_relu.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the line reads and writes TensorCore buffers only. -/
theorem ops_sub : (ops : List (HloOp τ sig (Elt F))).Forall fun op => op.bufs ⊆ tcRefs τ sig := by
  simp only [ops, opsA0, opsA1, opsB, opsC0, opsC1, opsD, opsE0, opsE1, opsF, List.cons_append, List.nil_append, List.Forall,
    TRef.nullary, TRef.unary, TRef.binary, TRef.ternary,
    nullary_bufs_sub, unary_bufs_sub, binary_bufs_sub, ternary_bufs_sub, reshape_bufs_sub, and_self]

/-- From any memory with zero counters every weakly fair execution terminates, nothing faulting, and leaves each
    TensorCore buffer at the fold of the line's operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  The reference program's result as one function of its arguments, and that function is the whole model.

  The reference's line of host operations is read in nine stretches: the edge endpoints and the degree's mask and
  inverse root from the edge list; the node normalisers; the first product and the edge weights; the aggregation and
  first bias add; the leaky slope; then the same three for the second layer (the reference computes the edge weights
  anew, from the same normalisers and endpoints, so they are the same array); and the final product and bias. After each stretch the few buffers that later stretches read are known
  as stage functions of the buffers the stretch itself reads, and the fold over the whole line is the fold over
  the stretches in turn.

  Three of the reference's steps are spelt differently from the model's whole-array functions, and are the same
  functions on the extended reals:
  * a general dot product contracting the table's columns with the matrix's rows is, entry by entry, the sum over
    the shared index of the products;
  * a bias vector broadcast to a row and then down the table reads, at (n, c), the vector's entry c, as does the
    vector laid out as a row and read at (0, c);
  * the leaky slope with the weak test 0 ≤ v is the leaky slope with the strict test 0 < v.
-/
import proofs.«120929_j3917010174092_1_alg».proof.Proof.RefRun
import proofs.«120929_j3917010174092_1_alg».proof.Proof.Stages
import proofs.«120929_j3917010174092_1_alg».proof.Proof.LibTypedRefCasts
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.ReferenceIdeal.Val

open Cert.ReferenceIdeal Cert.ReferenceIdeal.RefOps Cert.ReferenceIdeal.Facts₀ Cert.ReferenceIdeal.Facts
open Cert.Gcn Cert.Gcn.Host Cert.LibTypedRefCasts
open Idealize.ShloMosaic Idealize.ShloMosaic.TcCoe Idealize.ShloMosaic.ValueIdx Idealize.SL.Sem Idealize.ShloMosaic.StableHlo

/-! ## The reference's own spellings -/

/-- The host's general dot product of a table with a 128 × 128 matrix. -/
def refProduct (x : Arr S50000x128 .f32) (W : Arr S128x128 .f32) : Arr S50000x128 .f32 :=
  Host.dotGeneral (F := Ideal) (φ₁ := .f32) (φ₂ := .f32) dot_S50000x128_S128x128_S50000x128_1_0_0_1_n_n none x W

/-- The host's general dot product of a table with a 128 × 64 matrix. -/
def refProduct64 (x : Arr S50000x128 .f32) (W : Arr S128x64 .f32) : Arr S50000x64 .f32 :=
  Host.dotGeneral (F := Ideal) (φ₁ := .f32) (φ₂ := .f32) dot_S50000x128_S128x64_S50000x64_1_0_0_1_n_n none x W

/-- A bias vector broadcast to a row and down the table, added to the table. -/
def refBias (A : Arr S50000x128 .f32) (b : Arr S128 .f32) : Arr S50000x128 .f32 :=
  addf (F := Ideal) (s := S50000x128) (φ := .f32) A
    (broadcastInDim S50000x128 ![0, 1] bcast_S1x128_S50000x128_0_1 (broadcastInDim S1x128 ![1] bcast_S128_S1x128_1 b))

/-- The same for 64 columns. -/
def refBias64 (A : Arr S50000x64 .f32) (b : Arr S64 .f32) : Arr S50000x64 .f32 :=
  addf (F := Ideal) (s := S50000x64) (φ := .f32) A
    (broadcastInDim S50000x64 ![0, 1] bcast_S1x64_S50000x64_0_1 (broadcastInDim S1x64 ![1] bcast_S64_S1x64_1 b))

/-- The leaky slope with the weak test, the slope a scalar array. -/
def refLeaky (A : Arr S50000x128 .f32) (s : Arr S_ .f32) : Arr S50000x128 .f32 :=
  select (cmpf .oge A (broadcastInDim S50000x128 ![] bcast_S_S50000x128 (constant (F := Ideal) S_ .f32 0x00000000#32))) A
    (mulf (F := Ideal) (s := S50000x128) (φ := .f32) (broadcastInDim S50000x128 ![] bcast_S_S50000x128 (id s)) A)

/-- One layer as the reference spells it. -/
def refLayer (x : Arr S50000x128 .f32) (nrm : Arr S50000 .f32) (src dst : Arr S850000 .i32) (W : Arr S128x128 .f32)
    (b : Arr S128 .f32) : Arr S50000x128 .f32 :=
  refLeaky (refBias (aggregate (refProduct x W) src dst (edgeWeight nrm src dst)) b) (constant (F := Ideal) S_ .f32 0x3C23D70A#32)

/-! ## The nine stretches -/

section Stretches

variable (V : Valuation τ sig (Elt Ideal))

set_option maxHeartbeats 2000000 in
theorem opsA0_src : after opsA0 V (Proc.devRef .tc main_v3 : DevRef τ sig)
    = srcOf (V (Proc.devRef .tc main_arg1 : DevRef τ sig)) := by
  simp only [opsA0]
  after_results_simp
  rfl

set_option maxHeartbeats 2000000 in
theorem opsA0_dst : after opsA0 V (Proc.devRef .tc main_v6 : DevRef τ sig)
    = dstOf (V (Proc.devRef .tc main_arg1 : DevRef τ sig)) := by
  simp only [opsA0]
  after_results_simp
  rfl

set_option maxHeartbeats 2000000 in
theorem opsA0_positive : after opsA0 V (Proc.devRef .tc main_v12 : DevRef τ sig)
    = degreePositive (dstOf (V (Proc.devRef .tc main_arg1 : DevRef τ sig))) := by
  simp only [opsA0]
  after_results_simp
  rfl

set_option maxHeartbeats 2000000 in
theorem opsA0_rsqrt : after opsA0 V (Proc.devRef .tc main_v15 : DevRef τ sig)
    = degreeRsqrt (dstOf (V (Proc.devRef .tc main_arg1 : DevRef τ sig))) := by
  simp only [opsA0]
  after_results_simp
  rfl

set_option maxHeartbeats 2000000 in
theorem opsA0_zero : after opsA0 V (Proc.devRef .tc main_cst_3 : DevRef τ sig)
    = constant (F := Ideal) S_ .f32 0x00000000#32 := by
  simp only [opsA0]
  after_results_simp

set_option maxHeartbeats 2000000 in
theorem opsA0_keeps_arg0 : after opsA0 V (Proc.devRef .tc main_arg0 : DevRef τ sig) = V (Proc.devRef .tc main_arg0 : DevRef τ sig) := by
  simp only [opsA0]
  after_results_simp

set_option maxHeartbeats 2000000 in
theorem opsA0_keeps_arg2 : after opsA0 V (Proc.devRef .tc main_arg2 : DevRef τ sig) = V (Proc.devRef .tc main_arg2 : DevRef τ sig) := by
  simp only [opsA0]
  after_results_simp

set_option maxHeartbeats 2000000 in
theorem opsA0_keeps_arg3 : after opsA0 V (Proc.devRef .tc main_arg3 : DevRef τ sig) = V (Proc.devRef .tc main_arg3 : DevRef τ sig) := by
  simp only [opsA0]
  after_results_simp

set_option maxHeartbeats 2000000 in
theorem opsA0_keeps_arg4 : after opsA0 V (Proc.devRef .tc main_arg4 : DevRef τ sig) = V (Proc.devRef .tc main_arg4 : DevRef τ sig) := by
  simp only [opsA0]
  after_results_simp

set_option maxHeartbeats 2000000 in
theorem opsA0_keeps_arg5 : after opsA0 V (Proc.devRef .tc main_arg5 : DevRef τ sig) = V (Proc.devRef .tc main_arg5 : DevRef τ sig) := by
  simp only [opsA0]
  after_results_simp

set_option maxHeartbeats 2000000 in
theorem opsA0_keeps_arg6 : after opsA0 V (Proc.devRef .tc main_arg6 : DevRef τ sig) = V (Proc.devRef .tc main_arg6 : DevRef τ sig) := by
  simp only [opsA0]
  after_results_simp

set_option maxHeartbeats 2000000 in
theorem opsA0_keeps_arg7 : after opsA0 V (Proc.devRef .tc main_arg7 : DevRef τ sig) = V (Proc.devRef .tc main_arg7 : DevRef τ sig) := by
  simp only [opsA0]
  after_results_simp

theorem opsA1_normaliser : after opsA1 V (Proc.devRef .tc main_v16 : DevRef τ sig)
    = normaliser (V (Proc.devRef .tc main_v12 : DevRef τ sig)) (V (Proc.devRef .tc main_v15 : DevRef τ sig)) (V (Proc.devRef .tc main_cst_3 : DevRef τ sig)) := by
  simp only [opsA1]
  after_results_simp
  simp only [ofBuf_toBuf, toBuf_ofBuf]
  rfl

set_option maxHeartbeats 2000000 in
theorem opsA1_keeps_v3 : after opsA1 V (Proc.devRef .tc main_v3 : DevRef τ sig) = V (Proc.devRef .tc main_v3 : DevRef τ sig) := by
  simp only [opsA1]
  after_results_simp

set_option maxHeartbeats 2000000 in
theorem opsA1_keeps_v6 : after opsA1 V (Proc.devRef .tc main_v6 : DevRef τ sig) = V (Proc.devRef .tc main_v6 : DevRef τ sig) := by
  simp only [opsA1]
  after_results_simp

set_option maxHeartbeats 2000000 in
theorem opsA1_keeps_arg0 : after opsA1 V (Proc.devRef .tc main_arg0 : DevRef τ sig) = V (Proc.devRef .tc main_arg0 : DevRef τ sig) := by
  simp only [opsA1]
  after_results_simp

set_option maxHeartbeats 2000000 in
theorem opsA1_keeps_arg2 : after opsA1 V (Proc.devRef .tc main_arg2 : DevRef τ sig) = V (Proc.devRef .tc main_arg2 : DevRef τ sig) := by
  simp only [opsA1]
  after_results_simp

set_option maxHeartbeats 2000000 in
theorem opsA1_keeps_arg3 : after opsA1 V (Proc.devRef .tc main_arg3 : DevRef τ sig) = V (Proc.devRef .tc main_arg3 : DevRef τ sig) := by
  simp only [opsA1]
  after_results_simp

set_option maxHeartbeats 2000000 in
theorem opsA1_keeps_arg4 : after opsA1 V (Proc.devRef .tc main_arg4 : DevRef τ sig) = V (Proc.devRef .tc main_arg4 : DevRef τ sig) := by
  simp only [opsA1]
  after_results_simp

set_option maxHeartbeats 2000000 in
theorem opsA1_keeps_arg5 : after opsA1 V (Proc.devRef .tc main_arg5 : DevRef τ sig) = V (Proc.devRef .tc main_arg5 : DevRef τ sig) := by
  simp only [opsA1]
  after_results_simp

set_option maxHeartbeats 2000000 in
theorem opsA1_keeps_arg6 : after opsA1 V (Proc.devRef .tc main_arg6 : DevRef τ sig) = V (Proc.devRef .tc main_arg6 : DevRef τ sig) := by
  simp only [opsA1]
  after_results_simp

set_option maxHeartbeats 2000000 in
theorem opsA1_keeps_arg7 : after opsA1 V (Proc.devRef .tc main_arg7 : DevRef τ sig) = V (Proc.devRef .tc main_arg7 : DevRef τ sig) := by
  simp only [opsA1]
  after_results_simp

set_option maxHeartbeats 2000000 in
theorem opsB_product : after opsB V (Proc.devRef .tc main_v17 : DevRef τ sig)
    = refProduct (V (Proc.devRef .tc main_arg0 : DevRef τ sig)) (V (Proc.devRef .tc main_arg2 : DevRef τ sig)) := by
  simp only [opsB]
  after_results_simp
  rfl

set_option maxHeartbeats 2000000 in
theorem opsB_weight : after opsB V (Proc.devRef .tc main_v32 : DevRef τ sig)
    = edgeWeight (V (Proc.devRef .tc main_v16 : DevRef τ sig)) (V (Proc.devRef .tc main_v3 : DevRef τ sig)) (V (Proc.devRef .tc main_v6 : DevRef τ sig)) := by
  simp only [opsB]
  after_results_simp
  rfl

set_option maxHeartbeats 2000000 in
theorem opsB_keeps_v3 : after opsB V (Proc.devRef .tc main_v3 : DevRef τ sig) = V (Proc.devRef .tc main_v3 : DevRef τ sig) := by
  simp only [opsB]
  after_results_simp

set_option maxHeartbeats 2000000 in
theorem opsB_keeps_v6 : after opsB V (Proc.devRef .tc main_v6 : DevRef τ sig) = V (Proc.devRef .tc main_v6 : DevRef τ sig) := by
  simp only [opsB]
  after_results_simp

set_option maxHeartbeats 2000000 in
theorem opsB_keeps_v16 : after opsB V (Proc.devRef .tc main_v16 : DevRef τ sig) = V (Proc.devRef .tc main_v16 : DevRef τ sig) := by
  simp only [opsB]
  after_results_simp

set_option maxHeartbeats 2000000 in
theorem opsB_keeps_arg3 : after opsB V (Proc.devRef .tc main_arg3 : DevRef τ sig) = V (Proc.devRef .tc main_arg3 : DevRef τ sig) := by
  simp only [opsB]
  after_results_simp

set_option maxHeartbeats 2000000 in
theorem opsB_keeps_arg4 : after opsB V (Proc.devRef .tc main_arg4 : DevRef τ sig) = V (Proc.devRef .tc main_arg4 : DevRef τ sig) := by
  simp only [opsB]
  after_results_simp

set_option maxHeartbeats 2000000 in
theorem opsB_keeps_arg5 : after opsB V (Proc.devRef .tc main_arg5 : DevRef τ sig) = V (Proc.devRef .tc main_arg5 : DevRef τ sig) := by
  simp only [opsB]
  after_results_simp

set_option maxHeartbeats 2000000 in
theorem opsB_keeps_arg6 : after opsB V (Proc.devRef .tc main_arg6 : DevRef τ sig) = V (Proc.devRef .tc main_arg6 : DevRef τ sig) := by
  simp only [opsB]
  after_results_simp

set_option maxHeartbeats 2000000 in
theorem opsB_keeps_arg7 : after opsB V (Proc.devRef .tc main_arg7 : DevRef τ sig) = V (Proc.devRef .tc main_arg7 : DevRef τ sig) := by
  simp only [opsB]
  after_results_simp

set_option maxHeartbeats 2000000 in
theorem opsC0_biased : after opsC0 V (Proc.devRef .tc main_v48 : DevRef τ sig)
    = refBias (aggregate (V (Proc.devRef .tc main_v17 : DevRef τ sig)) (V (Proc.devRef .tc main_v3 : DevRef τ sig)) (V (Proc.devRef .tc main_v6 : DevRef τ sig)) (V (Proc.devRef .tc main_v32 : DevRef τ sig))) (V (Proc.devRef .tc main_arg3 : DevRef τ sig)) := by
  simp only [opsC0]
  after_results_simp
  rfl

set_option maxHeartbeats 2000000 in
theorem opsC0_slope : after opsC0 V (Proc.devRef .tc main_cst_10 : DevRef τ sig)
    = constant (F := Ideal) S_ .f32 0x3C23D70A#32 := by
  simp only [opsC0]
  after_results_simp

set_option maxHeartbeats 2000000 in
theorem opsC0_keeps_v3 : after opsC0 V (Proc.devRef .tc main_v3 : DevRef τ sig) = V (Proc.devRef .tc main_v3 : DevRef τ sig) := by
  simp only [opsC0]
  after_results_simp

set_option maxHeartbeats 2000000 in
theorem opsC0_keeps_v6 : after opsC0 V (Proc.devRef .tc main_v6 : DevRef τ sig) = V (Proc.devRef .tc main_v6 : DevRef τ sig) := by
  simp only [opsC0]
  after_results_simp

set_option maxHeartbeats 2000000 in
theorem opsC0_keeps_v16 : after opsC0 V (Proc.devRef .tc main_v16 : DevRef τ sig) = V (Proc.devRef .tc main_v16 : DevRef τ sig) := by
  simp only [opsC0]
  after_results_simp

set_option maxHeartbeats 2000000 in
theorem opsC0_keeps_arg4 : after opsC0 V (Proc.devRef .tc main_arg4 : DevRef τ sig) = V (Proc.devRef .tc main_arg4 : DevRef τ sig) := by
  simp only [opsC0]
  after_results_simp

set_option maxHeartbeats 2000000 in
theorem opsC0_keeps_arg5 : after opsC0 V (Proc.devRef .tc main_arg5 : DevRef τ sig) = V (Proc.devRef .tc main_arg5 : DevRef τ sig) := by
  simp only [opsC0]
  after_results_simp

set_option maxHeartbeats 2000000 in
theorem opsC0_keeps_arg6 : after opsC0 V (Proc.devRef .tc main_arg6 : DevRef τ sig) = V (Proc.devRef .tc main_arg6 : DevRef τ sig) := by
  simp only [opsC0]
  after_results_simp

set_option maxHeartbeats 2000000 in
theorem opsC0_keeps_arg7 : after opsC0 V (Proc.devRef .tc main_arg7 : DevRef τ sig) = V (Proc.devRef .tc main_arg7 : DevRef τ sig) := by
  simp only [opsC0]
  after_results_simp

theorem opsC1_leaky : after opsC1 V (Proc.devRef .tc main_v49 : DevRef τ sig) = refLeaky (V (Proc.devRef .tc main_v48 : DevRef τ sig)) (V (Proc.devRef .tc main_cst_10 : DevRef τ sig)) := by
  simp only [opsC1]
  after_results_simp
  simp only [ofBuf_toBuf, toBuf_ofBuf]
  rfl

set_option maxHeartbeats 2000000 in
theorem opsC1_keeps_v3 : after opsC1 V (Proc.devRef .tc main_v3 : DevRef τ sig) = V (Proc.devRef .tc main_v3 : DevRef τ sig) := by
  simp only [opsC1]
  after_results_simp

set_option maxHeartbeats 2000000 in
theorem opsC1_keeps_v6 : after opsC1 V (Proc.devRef .tc main_v6 : DevRef τ sig) = V (Proc.devRef .tc main_v6 : DevRef τ sig) := by
  simp only [opsC1]
  after_results_simp

set_option maxHeartbeats 2000000 in
theorem opsC1_keeps_v16 : after opsC1 V (Proc.devRef .tc main_v16 : DevRef τ sig) = V (Proc.devRef .tc main_v16 : DevRef τ sig) := by
  simp only [opsC1]
  after_results_simp

set_option maxHeartbeats 2000000 in
theorem opsC1_keeps_arg4 : after opsC1 V (Proc.devRef .tc main_arg4 : DevRef τ sig) = V (Proc.devRef .tc main_arg4 : DevRef τ sig) := by
  simp only [opsC1]
  after_results_simp

set_option maxHeartbeats 2000000 in
theorem opsC1_keeps_arg5 : after opsC1 V (Proc.devRef .tc main_arg5 : DevRef τ sig) = V (Proc.devRef .tc main_arg5 : DevRef τ sig) := by
  simp only [opsC1]
  after_results_simp

set_option maxHeartbeats 2000000 in
theorem opsC1_keeps_arg6 : after opsC1 V (Proc.devRef .tc main_arg6 : DevRef τ sig) = V (Proc.devRef .tc main_arg6 : DevRef τ sig) := by
  simp only [opsC1]
  after_results_simp

set_option maxHeartbeats 2000000 in
theorem opsC1_keeps_arg7 : after opsC1 V (Proc.devRef .tc main_arg7 : DevRef τ sig) = V (Proc.devRef .tc main_arg7 : DevRef τ sig) := by
  simp only [opsC1]
  after_results_simp

set_option maxHeartbeats 2000000 in
theorem opsD_product : after opsD V (Proc.devRef .tc main_v50 : DevRef τ sig)
    = refProduct (V (Proc.devRef .tc main_v49 : DevRef τ sig)) (V (Proc.devRef .tc main_arg4 : DevRef τ sig)) := by
  simp only [opsD]
  after_results_simp
  rfl

set_option maxHeartbeats 2000000 in
theorem opsD_weight : after opsD V (Proc.devRef .tc main_v65 : DevRef τ sig)
    = edgeWeight (V (Proc.devRef .tc main_v16 : DevRef τ sig)) (V (Proc.devRef .tc main_v3 : DevRef τ sig)) (V (Proc.devRef .tc main_v6 : DevRef τ sig)) := by
  simp only [opsD]
  after_results_simp
  rfl

set_option maxHeartbeats 2000000 in
theorem opsD_keeps_v3 : after opsD V (Proc.devRef .tc main_v3 : DevRef τ sig) = V (Proc.devRef .tc main_v3 : DevRef τ sig) := by
  simp only [opsD]
  after_results_simp

set_option maxHeartbeats 2000000 in
theorem opsD_keeps_v6 : after opsD V (Proc.devRef .tc main_v6 : DevRef τ sig) = V (Proc.devRef .tc main_v6 : DevRef τ sig) := by
  simp only [opsD]
  after_results_simp

set_option maxHeartbeats 2000000 in
theorem opsD_keeps_arg5 : after opsD V (Proc.devRef .tc main_arg5 : DevRef τ sig) = V (Proc.devRef .tc main_arg5 : DevRef τ sig) := by
  simp only [opsD]
  after_results_simp

set_option maxHeartbeats 2000000 in
theorem opsD_keeps_arg6 : after opsD V (Proc.devRef .tc main_arg6 : DevRef τ sig) = V (Proc.devRef .tc main_arg6 : DevRef τ sig) := by
  simp only [opsD]
  after_results_simp

set_option maxHeartbeats 2000000 in
theorem opsD_keeps_arg7 : after opsD V (Proc.devRef .tc main_arg7 : DevRef τ sig) = V (Proc.devRef .tc main_arg7 : DevRef τ sig) := by
  simp only [opsD]
  after_results_simp

set_option maxHeartbeats 2000000 in
theorem opsE0_biased : after opsE0 V (Proc.devRef .tc main_v81 : DevRef τ sig)
    = refBias (aggregate (V (Proc.devRef .tc main_v50 : DevRef τ sig)) (V (Proc.devRef .tc main_v3 : DevRef τ sig)) (V (Proc.devRef .tc main_v6 : DevRef τ sig)) (V (Proc.devRef .tc main_v65 : DevRef τ sig))) (V (Proc.devRef .tc main_arg5 : DevRef τ sig)) := by
  simp only [opsE0]
  after_results_simp
  rfl

set_option maxHeartbeats 2000000 in
theorem opsE0_slope : after opsE0 V (Proc.devRef .tc main_cst_18 : DevRef τ sig)
    = constant (F := Ideal) S_ .f32 0x3C23D70A#32 := by
  simp only [opsE0]
  after_results_simp

set_option maxHeartbeats 2000000 in
theorem opsE0_keeps_arg6 : after opsE0 V (Proc.devRef .tc main_arg6 : DevRef τ sig) = V (Proc.devRef .tc main_arg6 : DevRef τ sig) := by
  simp only [opsE0]
  after_results_simp

set_option maxHeartbeats 2000000 in
theorem opsE0_keeps_arg7 : after opsE0 V (Proc.devRef .tc main_arg7 : DevRef τ sig) = V (Proc.devRef .tc main_arg7 : DevRef τ sig) := by
  simp only [opsE0]
  after_results_simp

theorem opsE1_leaky : after opsE1 V (Proc.devRef .tc main_v82 : DevRef τ sig) = refLeaky (V (Proc.devRef .tc main_v81 : DevRef τ sig)) (V (Proc.devRef .tc main_cst_18 : DevRef τ sig)) := by
  simp only [opsE1]
  after_results_simp
  simp only [ofBuf_toBuf, toBuf_ofBuf]
  rfl

set_option maxHeartbeats 2000000 in
theorem opsE1_keeps_arg6 : after opsE1 V (Proc.devRef .tc main_arg6 : DevRef τ sig) = V (Proc.devRef .tc main_arg6 : DevRef τ sig) := by
  simp only [opsE1]
  after_results_simp

set_option maxHeartbeats 2000000 in
theorem opsE1_keeps_arg7 : after opsE1 V (Proc.devRef .tc main_arg7 : DevRef τ sig) = V (Proc.devRef .tc main_arg7 : DevRef τ sig) := by
  simp only [opsE1]
  after_results_simp

theorem opsF_result : after opsF V (Proc.devRef .tc main_v86 : DevRef τ sig)
    = refBias64 (refProduct64 (V (Proc.devRef .tc main_v82 : DevRef τ sig)) (V (Proc.devRef .tc main_arg6 : DevRef τ sig))) (V (Proc.devRef .tc main_arg7 : DevRef τ sig)) := by
  simp only [opsF]
  after_results_simp
  rfl

/-- The fold over the whole line is the fold over the nine stretches in turn. -/
theorem ops_fold : after ops V
    = after opsF (after opsE1 (after opsE0 (after opsD (after opsC1 (after opsC0 (after opsB (after opsA1 (after opsA0 V)))))))) := by
  show after (opsA0 ++ (opsA1 ++ (opsB ++ (opsC0 ++ (opsC1 ++ (opsD ++ (opsE0 ++ (opsE1 ++ opsF)))))))) V = _
  rw [StableHlo.after_append, StableHlo.after_append, StableHlo.after_append, StableHlo.after_append, StableHlo.after_append,
    StableHlo.after_append, StableHlo.after_append, StableHlo.after_append]

end Stretches

/-! ## The reference's spellings are the model's functions -/

/-- The general dot product is, entry by entry, the sum over the shared index. -/
theorem refProduct_eq (x : Arr S50000x128 .f32) (W : Arr S128x128 .f32) :
    refProduct x W = rowsByCols (N := 50000) (K := 128) (M := 128) x W := by
  refine funext fun (i : S50000x128.Idx) => ?_
  obtain ⟨n, c, rfl⟩ : ∃ (n : Fin 50000) (c : Fin 128), i = ix2 n c := ⟨i 0, i 1, eq_ix2 i⟩
  exact Cert.RowsByCols.dotGeneral_apply dot_S50000x128_S128x128_S50000x128_1_0_0_1_n_n ⟨rfl, rfl, rfl, rfl, rfl, rfl⟩ none x W n c

/-- A bias vector broadcast to a row and down the table reads, at (n, c), the vector's entry c. -/
theorem bias_read (b : Arr S128 .f32) (n : Fin 50000) (c : Fin 128) : broadcastInDim S50000x128 ![0, 1] bcast_S1x128_S50000x128_0_1 (broadcastInDim S1x128 ![1] bcast_S128_S1x128_1 b) (ix2 n c) = b (ix1 c) := by
  rw [broadcastInDim_apply ![0, 1] bcast_S1x128_S50000x128_0_1 _ (ix2 n c) (ix2 (0 : Fin 1) c)
    (fun a => by match a with | ⟨0, _⟩ => rfl | ⟨1, _⟩ => rfl)]
  exact broadcastInDim_apply ![1] bcast_S128_S1x128_1 b (ix2 (0 : Fin 1) c) (ix1 c) (fun a => by match a with | ⟨0, _⟩ => rfl)

/-- The same for 64 columns. -/
theorem bias_read64 (b : Arr S64 .f32) (n : Fin 50000) (c : Fin 64) : broadcastInDim S50000x64 ![0, 1] bcast_S1x64_S50000x64_0_1 (broadcastInDim S1x64 ![1] bcast_S64_S1x64_1 b) (ix2 n c) = b (ix1 c) := by
  rw [broadcastInDim_apply ![0, 1] bcast_S1x64_S50000x64_0_1 _ (ix2 n c) (ix2 (0 : Fin 1) c)
    (fun a => by match a with | ⟨0, _⟩ => rfl | ⟨1, _⟩ => rfl)]
  exact broadcastInDim_apply ![1] bcast_S64_S1x64_1 b (ix2 (0 : Fin 1) c) (ix1 c) (fun a => by match a with | ⟨0, _⟩ => rfl)

/-- A scalar broadcast over the table reads the scalar everywhere. -/
theorem scalar_read (z : Arr S_ .f32) (i : S50000x128.Idx) :
    broadcastInDim S50000x128 ![] bcast_S_S50000x128 z i = z ix0 :=
  broadcastInDim_apply ![] bcast_S_S50000x128 z i ix0 (fun a => a.elim0)

/-- The bias add and weak-test slope of the reference are the model's bias row and strict-test slope. -/
theorem refAct_eq (G : Arr S50000x128 .f32) (b : Arr S128 .f32) :
    refLeaky (refBias G b) (constant (F := Ideal) S_ .f32 0x3C23D70A#32)
      = biasLeaky (N := 50000) (C := 128) slope G (row128 b) := by
  refine funext fun (i : S50000x128.Idx) => ?_
  obtain ⟨n, c, rfl⟩ : ∃ (n : Fin 50000) (c : Fin 128), i = ix2 n c := ⟨i 0, i 1, eq_ix2 i⟩
  have hb : broadcastInDim S50000x128 ![0, 1] bcast_S1x128_S50000x128_0_1 (broadcastInDim S1x128 ![1] bcast_S128_S1x128_1 b) (ix2 n c) = b (ix1 c) := bias_read b n c
  have hz : broadcastInDim S50000x128 ![] bcast_S_S50000x128 (constant (F := Ideal) S_ .f32 0x00000000#32) (ix2 n c) = 0 := (scalar_read _ _).trans Ideal.ofBits_zero_f32
  have hs : broadcastInDim S50000x128 ![] bcast_S_S50000x128 (id (constant (F := Ideal) S_ .f32 0x3C23D70A#32)) (ix2 n c) = slope := scalar_read _ _
  have hr : row128 b (ix2 (0 : Fin 1) c) = b (ix1 c) := shapeCast_a_1a_apply b _ 0 c
  show Scalar.select (Ideal.cmp .oge (G (ix2 n c) + broadcastInDim S50000x128 ![0, 1] bcast_S1x128_S50000x128_0_1 (broadcastInDim S1x128 ![1] bcast_S128_S1x128_1 b) (ix2 n c)) (broadcastInDim S50000x128 ![] bcast_S_S50000x128 (constant (F := Ideal) S_ .f32 0x00000000#32) (ix2 n c)))
      (G (ix2 n c) + broadcastInDim S50000x128 ![0, 1] bcast_S1x128_S50000x128_0_1 (broadcastInDim S1x128 ![1] bcast_S128_S1x128_1 b) (ix2 n c))
      (broadcastInDim S50000x128 ![] bcast_S_S50000x128 (id (constant (F := Ideal) S_ .f32 0x3C23D70A#32)) (ix2 n c) * (G (ix2 n c) + broadcastInDim S50000x128 ![0, 1] bcast_S1x128_S50000x128_0_1 (broadcastInDim S1x128 ![1] bcast_S128_S1x128_1 b) (ix2 n c)))
    = leakyGt slope (G (ix2 n c) + row128 b (ix2 (0 : Fin 1) c))
  rw [hb, hz, hs, hr, select_oge]
  exact (leakyGt_eq_leakyGe _ _).symm

/-- The final product and bias add of the reference are the model's. -/
theorem refFinal_eq (a : Arr S50000x128 .f32) (W : Arr S128x64 .f32) (b : Arr S64 .f32) :
    refBias64 (refProduct64 a W) b
      = biasRow (N := 50000) (C := 64) (rowsByCols (N := 50000) (K := 128) (M := 64) a W) (row64 b) := by
  refine funext fun (i : S50000x64.Idx) => ?_
  obtain ⟨n, c, rfl⟩ : ∃ (n : Fin 50000) (c : Fin 64), i = ix2 n c := ⟨i 0, i 1, eq_ix2 i⟩
  have hb : broadcastInDim S50000x64 ![0, 1] bcast_S1x64_S50000x64_0_1 (broadcastInDim S1x64 ![1] bcast_S64_S1x64_1 b) (ix2 n c) = b (ix1 c) := bias_read64 b n c
  have hr : row64 b (ix2 (0 : Fin 1) c) = b (ix1 c) := shapeCast_a_1a_apply b _ 0 c
  have hp := Cert.RowsByCols.dotGeneral_apply (φ₁ := .f32) (φ₂ := .f32) dot_S50000x128_S128x64_S50000x64_1_0_0_1_n_n ⟨rfl, rfl, rfl, rfl, rfl, rfl⟩ none a W n c
  show Host.dotGeneral (F := Ideal) (φ₁ := .f32) (φ₂ := .f32) dot_S50000x128_S128x64_S50000x64_1_0_0_1_n_n none a W (ix2 n c) + broadcastInDim S50000x64 ![0, 1] bcast_S1x64_S50000x64_0_1 (broadcastInDim S1x64 ![1] bcast_S64_S1x64_1 b) (ix2 n c)
    = (∑ k : Fin 128, a (ix2 n k) * W (ix2 k c)) + row64 b (ix2 (0 : Fin 1) c)
  rw [hp, hb, hr]

/-! ## The stretches in turn, from the launch contents -/

variable (m : (ℓ : Loc nD τ sig) → Buf (Elt Ideal) ℓ) (c : Dev nD)

/-- After the fifth stretch: the first layer's activations. -/
theorem after_first_layer : after opsC1 (after opsC0 (after opsB (after opsA1 (after opsA0 (launchContents m c))))) (Proc.devRef .tc main_v49 : DevRef τ sig) = (layer (m ((c.tc : Thread nD τ).loc main_arg0)) (m ((c.tc : Thread nD τ).loc main_arg1)) (m ((c.tc : Thread nD τ).loc main_arg2)) (m ((c.tc : Thread nD τ).loc main_arg3))) := by
  rw [opsC1_leaky, opsC0_biased, opsC0_slope, opsB_product, opsB_keeps_v3, opsB_keeps_v6, opsB_weight, opsB_keeps_arg3,
    opsA1_keeps_arg0, opsA1_keeps_arg2, opsA1_keeps_arg3, opsA1_keeps_v3, opsA1_keeps_v6, opsA1_normaliser,
    opsA0_keeps_arg0, opsA0_keeps_arg2, opsA0_keeps_arg3, opsA0_src, opsA0_dst, opsA0_positive, opsA0_rsqrt, opsA0_zero,
    refProduct_eq, refAct_eq]
  rfl

/-- The endpoints, the normalisers and the later arguments are still there after the fifth stretch. -/
theorem kept_src : after opsC1 (after opsC0 (after opsB (after opsA1 (after opsA0 (launchContents m c))))) (Proc.devRef .tc main_v3 : DevRef τ sig) = srcOf (m ((c.tc : Thread nD τ).loc main_arg1)) := by
  rw [opsC1_keeps_v3, opsC0_keeps_v3, opsB_keeps_v3, opsA1_keeps_v3, opsA0_src]
theorem kept_dst : after opsC1 (after opsC0 (after opsB (after opsA1 (after opsA0 (launchContents m c))))) (Proc.devRef .tc main_v6 : DevRef τ sig) = dstOf (m ((c.tc : Thread nD τ).loc main_arg1)) := by
  rw [opsC1_keeps_v6, opsC0_keeps_v6, opsB_keeps_v6, opsA1_keeps_v6, opsA0_dst]
theorem kept_normaliser : after opsC1 (after opsC0 (after opsB (after opsA1 (after opsA0 (launchContents m c))))) (Proc.devRef .tc main_v16 : DevRef τ sig)
    = normaliser (degreePositive (dstOf (m ((c.tc : Thread nD τ).loc main_arg1)))) (degreeRsqrt (dstOf (m ((c.tc : Thread nD τ).loc main_arg1)))) (constant (F := Ideal) S_ .f32 0x00000000#32) := by
  rw [opsC1_keeps_v16, opsC0_keeps_v16, opsB_keeps_v16, opsA1_normaliser, opsA0_positive, opsA0_rsqrt, opsA0_zero]
theorem kept_arg4 : after opsC1 (after opsC0 (after opsB (after opsA1 (after opsA0 (launchContents m c))))) (Proc.devRef .tc main_arg4 : DevRef τ sig) = (m ((c.tc : Thread nD τ).loc main_arg4)) := by
  rw [opsC1_keeps_arg4, opsC0_keeps_arg4, opsB_keeps_arg4, opsA1_keeps_arg4, opsA0_keeps_arg4]
theorem kept_arg5 : after opsC1 (after opsC0 (after opsB (after opsA1 (after opsA0 (launchContents m c))))) (Proc.devRef .tc main_arg5 : DevRef τ sig) = (m ((c.tc : Thread nD τ).loc main_arg5)) := by
  rw [opsC1_keeps_arg5, opsC0_keeps_arg5, opsB_keeps_arg5, opsA1_keeps_arg5, opsA0_keeps_arg5]
theorem kept_arg6 : after opsC1 (after opsC0 (after opsB (after opsA1 (after opsA0 (launchContents m c))))) (Proc.devRef .tc main_arg6 : DevRef τ sig) = (m ((c.tc : Thread nD τ).loc main_arg6)) := by
  rw [opsC1_keeps_arg6, opsC0_keeps_arg6, opsB_keeps_arg6, opsA1_keeps_arg6, opsA0_keeps_arg6]
theorem kept_arg7 : after opsC1 (after opsC0 (after opsB (after opsA1 (after opsA0 (launchContents m c))))) (Proc.devRef .tc main_arg7 : DevRef τ sig) = (m ((c.tc : Thread nD τ).loc main_arg7)) := by
  rw [opsC1_keeps_arg7, opsC0_keeps_arg7, opsB_keeps_arg7, opsA1_keeps_arg7, opsA0_keeps_arg7]

/-- After the eighth stretch: the second layer's activations. -/
theorem after_second_layer : after opsE1 (after opsE0 (after opsD (after opsC1 (after opsC0 (after opsB (after opsA1 (after opsA0 (launchContents m c)))))))) (Proc.devRef .tc main_v82 : DevRef τ sig) = (layer (layer (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5))) := by
  rw [opsE1_leaky, opsE0_biased, opsE0_slope, opsD_product, opsD_keeps_v3, opsD_keeps_v6, opsD_weight, opsD_keeps_arg5,
    after_first_layer, kept_src, kept_dst, kept_normaliser, kept_arg4, kept_arg5, refProduct_eq, refAct_eq]
  rfl

/-- The result array after the run: the whole model applied to the launch contents of the arguments. -/
theorem result_value : after ops (launchContents m c) (Proc.devRef .tc main_v86 : DevRef τ sig)
    = gcnOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [ops_fold, opsF_result, after_second_layer, opsE1_keeps_arg6, opsE1_keeps_arg7, opsE0_keeps_arg6, opsE0_keeps_arg7,
    opsD_keeps_arg6, opsD_keeps_arg7, kept_arg6, kept_arg7, refFinal_eq]
  rfl

set_option maxHeartbeats 4000000 in
/-- The line writes no argument. -/
theorem keeps_arg0 (V : Valuation τ sig (Elt Ideal)) : after ops V (Proc.devRef .tc main_arg0 : DevRef τ sig) = V (Proc.devRef .tc main_arg0 : DevRef τ sig) := by
  simp only [ops, opsA0, opsA1, opsB, opsC0, opsC1, opsD, opsE0, opsE1, opsF, List.cons_append, List.nil_append]
  after_results_simp

set_option maxHeartbeats 4000000 in
/-- The line writes no argument. -/
theorem keeps_arg1 (V : Valuation τ sig (Elt Ideal)) : after ops V (Proc.devRef .tc main_arg1 : DevRef τ sig) = V (Proc.devRef .tc main_arg1 : DevRef τ sig) := by
  simp only [ops, opsA0, opsA1, opsB, opsC0, opsC1, opsD, opsE0, opsE1, opsF, List.cons_append, List.nil_append]
  after_results_simp

set_option maxHeartbeats 4000000 in
/-- The line writes no argument. -/
theorem keeps_arg2 (V : Valuation τ sig (Elt Ideal)) : after ops V (Proc.devRef .tc main_arg2 : DevRef τ sig) = V (Proc.devRef .tc main_arg2 : DevRef τ sig) := by
  simp only [ops, opsA0, opsA1, opsB, opsC0, opsC1, opsD, opsE0, opsE1, opsF, List.cons_append, List.nil_append]
  after_results_simp

set_option maxHeartbeats 4000000 in
/-- The line writes no argument. -/
theorem keeps_arg3 (V : Valuation τ sig (Elt Ideal)) : after ops V (Proc.devRef .tc main_arg3 : DevRef τ sig) = V (Proc.devRef .tc main_arg3 : DevRef τ sig) := by
  simp only [ops, opsA0, opsA1, opsB, opsC0, opsC1, opsD, opsE0, opsE1, opsF, List.cons_append, List.nil_append]
  after_results_simp

set_option maxHeartbeats 4000000 in
/-- The line writes no argument. -/
theorem keeps_arg4 (V : Valuation τ sig (Elt Ideal)) : after ops V (Proc.devRef .tc main_arg4 : DevRef τ sig) = V (Proc.devRef .tc main_arg4 : DevRef τ sig) := by
  simp only [ops, opsA0, opsA1, opsB, opsC0, opsC1, opsD, opsE0, opsE1, opsF, List.cons_append, List.nil_append]
  after_results_simp

set_option maxHeartbeats 4000000 in
/-- The line writes no argument. -/
theorem keeps_arg5 (V : Valuation τ sig (Elt Ideal)) : after ops V (Proc.devRef .tc main_arg5 : DevRef τ sig) = V (Proc.devRef .tc main_arg5 : DevRef τ sig) := by
  simp only [ops, opsA0, opsA1, opsB, opsC0, opsC1, opsD, opsE0, opsE1, opsF, List.cons_append, List.nil_append]
  after_results_simp

set_option maxHeartbeats 4000000 in
/-- The line writes no argument. -/
theorem keeps_arg6 (V : Valuation τ sig (Elt Ideal)) : after ops V (Proc.devRef .tc main_arg6 : DevRef τ sig) = V (Proc.devRef .tc main_arg6 : DevRef τ sig) := by
  simp only [ops, opsA0, opsA1, opsB, opsC0, opsC1, opsD, opsE0, opsE1, opsF, List.cons_append, List.nil_append]
  after_results_simp

set_option maxHeartbeats 4000000 in
/-- The line writes no argument. -/
theorem keeps_arg7 (V : Valuation τ sig (Elt Ideal)) : after ops V (Proc.devRef .tc main_arg7 : DevRef τ sig) = V (Proc.devRef .tc main_arg7 : DevRef τ sig) := by
  simp only [ops, opsA0, opsA1, opsB, opsC0, opsC1, opsD, opsE0, opsE1, opsF, List.cons_append, List.nil_append]
  after_results_simp

/-- Every weakly fair execution of the idealized reference terminates, nothing faulting, with the result array at
    the whole model of the arguments and every argument array as launched. -/
theorem run (ρ : Dev nD → PrngReg) : θ_run defs (onTc (τ := τ) (main (F := Ideal))) ⟨m, fun _ => 0, ρ⟩ (fun r => ∀ c : Dev nD,
      r.2.mem ((c.tc : Thread nD τ).loc main_v86)
        = gcnOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c main_v86).trans (result_value m c),
      (h c main_arg0).trans (keeps_arg0 (launchContents m c)),
      (h c main_arg1).trans (keeps_arg1 (launchContents m c)),
      (h c main_arg2).trans (keeps_arg2 (launchContents m c)),
      (h c main_arg3).trans (keeps_arg3 (launchContents m c)),
      (h c main_arg4).trans (keeps_arg4 (launchContents m c)),
      (h c main_arg5).trans (keeps_arg5 (launchContents m c)),
      (h c main_arg6).trans (keeps_arg6 (launchContents m c)),
      (h c main_arg7).trans (keeps_arg7 (launchContents m c))⟩)
    (RefRun.run_main m ρ)

end Cert.ReferenceIdeal.Val

end
-- ==== Proof.lean ====
/-
  A two-layer graph convolution network on 50000 nodes with 128 features and 800000 edges (plus one self loop per
  node), followed by a linear map to 64 outputs: a tiled kernel program against a plain array program.

  Both programs compute, from the edge list, each edge's weight d(src)^(-1/2) · d(dst)^(-1/2), d the in-degree; then
  twice: multiply the node table by a weight matrix, gather each edge's source row, scale it by the edge's weight,
  sum the scaled rows into the edge's destination, add a bias row and apply the leaky slope (v ↦ v for positive v,
  0.01·v otherwise, the constant as its binary value on both sides); then multiply by the last matrix and add the
  last bias.

  The two programs differ in three ways, none of which changes a value over the extended reals.
  * The kernel program computes each matrix product in ten row blocks of 5000 rows, rounding its operands to a
    shorter float format first. A change of format is the identity here, and a row of a product depends on that row
    of the left operand only, so the ten blocks are the rows of the one whole product, each entry the same sum
    Σₖ A(n, k) · B(k, c) in the same order.
  * The kernel program adds the bias and applies the leaky slope inside a tiled region, block by block; both steps
    act entry by entry (the bias row repeated down the rows), so the blocks are the rows of the whole-array result.
  * The kernel program keeps v where 0 < v, the array program where 0 ≤ v. The two part only at v = 0, where the
    first gives 0.01 · 0 = 0 and the second gives 0.
  The gathers, the scatter-adds and the degree computation are the same host operations in both programs; they are
  carried as named functions and never opened. No law used needs the inputs to be finite.

  Each program's result array is shown to be one and the same function `gcnOut` of the argument arrays; the kernel
  programs' frames are the generated ones, and the array program's frame is its run with the result dropped.
-/
import proofs.«120929_j3917010174092_1_alg».proof.Defs
import proofs.«120929_j3917010174092_1_alg».proof.Proof.Gen.Kernel
import proofs.«120929_j3917010174092_1_alg».proof.Proof.Gen.Kernel.Frame
import proofs.«120929_j3917010174092_1_alg».proof.Proof.Gen.KernelIdeal
import proofs.«120929_j3917010174092_1_alg».proof.Proof.Gen.KernelIdeal.Frame
import proofs.«120929_j3917010174092_1_alg».proof.Proof.Gen.ReferenceIdeal
import proofs.«120929_j3917010174092_1_alg».proof.Proof.Gen.Pre_finite_inputs
import proofs.«120929_j3917010174092_1_alg».proof.Proof.KernelValue
import proofs.«120929_j3917010174092_1_alg».proof.Proof.RefValue

noncomputable section

namespace Cert.Proof

open Idealize.ShloMosaic Idealize.SL.Sem

/-- The word-level kernel program terminates, faults nowhere and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized array program: its run, the result forgotten. -/
theorem frame_referenceIdeal : Cert.frame_ReferenceIdeal := fun m ρ _ =>
  (θ_run Cert.ReferenceIdeal.defs _ _).mono (fun _ h c => (h c).2) (Cert.ReferenceIdeal.Val.run m ρ)

/-- The idealization rewrote no operation. -/
theorem preserves : Cert.preserves_Kernel_KernelIdeal := trivial

/-- From memories that agree on the arguments both idealized programs end with the result array at the whole model
    of the arguments, and with the arguments as launched. -/
theorem algebraic : Cert.algebraic_KernelIdeal_ReferenceIdeal := by
  intro m ρ m' ρ' _ hagree
  refine ⟨fun c => Cert.Gcn.Host.gcnOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.Val.run m ρ, ?_⟩
  refine (θ_run Cert.ReferenceIdeal.defs _ _).mono (fun r h c => ⟨(h c).1.trans ?_, (h c).2⟩)
    (Cert.ReferenceIdeal.Val.run m' ρ')
  obtain ⟨a0, a1, a2, a3, a4, a5, a6, a7⟩ := hagree c
  rw [a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
